-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4 : Shape := ⟨1, ![4]⟩
abbrev S2048x2048 : Shape := ⟨2, ![2048, 2048]⟩
abbrev S2048 : Shape := ⟨1, ![2048]⟩
abbrev S8x2048x8 : Shape := ⟨3, ![8, 2048, 8]⟩
abbrev S8x8x2048 : Shape := ⟨3, ![8, 8, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8x2048x8 : S_.BroadcastsInDim S8x2048x8 (![] : Fin 0 → Fin S8x2048x8.rank)
  reducesTo_S8x2048x8_S_d0_1_2 : S8x2048x8.ReducesTo [0, 1, 2] S_
  bcast_S_S8x8x2048 : S_.BroadcastsInDim S8x8x2048 (![] : Fin 0 → Fin S8x8x2048.rank)
  reducesTo_S8x8x2048_S_d0_1_2 : S8x8x2048.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg1 : IVec S4 32) (main_arg5 : FVec F S8x8x2048 .f32) (main_v13 : IVec S_ 1) (main_v16 : IVec S8x2048x8 1) : IVec S_ 1 :=
  let main_c_5 : IVec S_ 1 := constantI S_ 1 1#1
  let main_v17 : IVec S_ 1 := (fun x v => Host.reduce IntOp.andi x v reducesTo_S8x2048x8_S_d0_1_2 h_S_) main_v16 main_c_5
  let main_v18 : IVec S_ 1 := andi main_v13 main_v17
  let main_v19 : FVec F S8x8x2048 .f32 := Host.absf main_arg5
  let main_cst_6 : FVec F S_ .f32 := constant S_ .f32 0x7F800000#32
  let main_v20 : FVec F S8x8x2048 .f32 := broadcastInDim S8x8x2048 ![] bcast_S_S8x8x2048 main_cst_6
  let main_v21 : IVec S8x8x2048 1 := cmpf .olt main_v19 main_v20
  let main_c_7 : IVec S_ 1 := constantI S_ 1 1#1
  let main_v22 : IVec S_ 1 := (fun x v => Host.reduce IntOp.andi x v reducesTo_S8x8x2048_S_d0_1_2 h_S_) main_v21 main_c_7
  let main_v23 : IVec S_ 1 := andi main_v18 main_v22
  let main_c_8 : IVec S_ 32 := constantI S_ 32 0#32
  let main_v24 : IVec S4 32 := broadcastInDim S4 ![] bcast_S_S4 main_c_8
  let main_v25 : IVec S4 1 := cmpi .sge main_arg1 main_v24
  let main_c_9 : IVec S_ 32 := constantI S_ 32 8#32
  let main_v26 : IVec S4 32 := broadcastInDim S4 ![] bcast_S_S4 main_c_9
  let main_v27 : IVec S4 1 := cmpi .slt main_arg1 main_v26
  let main_v28 : IVec S4 1 := andi main_v25 main_v27
  let main_c_10 : IVec S_ 1 := constantI S_ 1 1#1
  let main_v29 : IVec S_ 1 := (fun x v => Host.reduce IntOp.andi x v reducesTo_S4_S_d0 h_S_) main_v28 main_c_10
  let main_v30 : IVec S_ 1 := andi main_v23 main_v29
  main_v30

def fn {F : FTy → Type} [FloatOps F] (main_arg0 : FVec F S4x2048x2048 .f32) (main_arg1 : IVec S4 32) (main_arg2 : FVec F S2048x2048 .f32) (main_arg3 : FVec F S2048 .f32) (main_arg4 : FVec F S8x2048x8 .f32) (main_arg5 : FVec F S8x8x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8x2048x8 .f32 := Host.absf main_arg4
  let main_cst_4 : FVec F S_ .f32 := constant S_ .f32 0x7F800000#32
  let main_v15 : FVec F S8x2048x8 .f32 := broadcastInDim S8x2048x8 ![] bcast_S_S8x2048x8 main_cst_4
  let main_v16 : IVec S8x2048x8 1 := cmpf .olt main_v14 main_v15
  fn_part1 (F := F) main_arg1 main_arg5 main_v13 main_v16
-- ==== Kernel.lean ====
abbrev S4x2048x2048 : Shape := ⟨3, ![4, 2048, 2048]⟩
abbrev S4 : Shape := ⟨1, ![4]⟩
abbrev S2048x2048 : Shape := ⟨2, ![2048, 2048]⟩
abbrev S2048 : Shape := ⟨1, ![2048]⟩
abbrev S8x2048x8 : Shape := ⟨3, ![8, 2048, 8]⟩
abbrev S8x8x2048 : Shape := ⟨3, ![8, 8, 2048]⟩
abbrev S1x2048 : Shape := ⟨2, ![1, 2048]⟩
abbrev S_ : Shape := ⟨0, ![]⟩
abbrev S1x512x2048 : Shape := ⟨3, ![1, 512, 2048]⟩
abbrev S1x2048x8 : Shape := ⟨3, ![1, 2048, 8]⟩
abbrev S1 : Shape := ⟨1, ![1]⟩
abbrev S1x8x2048 : Shape := ⟨3, ![1, 8, 2048]⟩
abbrev S512x2048 : Shape := ⟨2, ![512, 2048]⟩
abbrev S2048x8 : Shape := ⟨2, ![2048, 8]⟩
abbrev S8x2048 : Shape := ⟨2, ![8, 2048]⟩
abbrev S512x8 : Shape := ⟨2, ![512, 8]⟩

abbrev nBuf : Space → Nat
  | .hbm => 13
  | .vmem => 10
  | .smem => 1
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8x2048x8, .f32⟩
  | .hbm, ⟨4, _⟩ => ⟨S8x8x2048, .f32⟩
  | .hbm, ⟨5, _⟩ => ⟨S1x2048, .f32⟩
  | .hbm, ⟨6, _⟩ => ⟨S2048x2048, .bf16⟩
  | .hbm, ⟨7, _⟩ => ⟨S8x2048x8, .bf16⟩
  | .hbm, ⟨8, _⟩ => ⟨S_, .f32⟩
  | .hbm, ⟨9, _⟩ => ⟨S8x8x2048, .f32⟩
  | .hbm, ⟨10, _⟩ => ⟨S8x8x2048, .f32⟩
  | .hbm, ⟨11, _⟩ => ⟨S8x8x2048, .bf16⟩
  | .hbm, ⟨12, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048x8, .bf16⟩
  | .local _ .vmem, ⟨5, _⟩ => ⟨S1x2048x8, .bf16⟩
  | .local _ .vmem, ⟨6, _⟩ => ⟨S1x8x2048, .bf16⟩
  | .local _ .vmem, ⟨7, _⟩ => ⟨S1x8x2048, .bf16⟩
  | .local _ .vmem, ⟨8, _⟩ => ⟨S1x512x2048, .f32⟩
  | .local _ .vmem, ⟨9, _⟩ => ⟨S1x512x2048, .f32⟩
  | .local _ .smem, ⟨0, _⟩ => ⟨S4, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2048_S1x2048 : S2048.ShapeCasts S1x2048
  bitsLt_bf16_f32 : FTy.bits .bf16 < FTy.bits .f32
  bcast_S_S8x8x2048 : S_.BroadcastsInDim S8x8x2048 (![] : Fin 0 → Fin S8x8x2048.rank)
  numel1_S1 : S1.numel = 1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S1x512x2048 : S512x2048.ShapeCasts S1x512x2048
  dot_S512x2048_S2048x2048_S512x2048_1_0_0_1_n_n_wf : DotDims.WF S512x2048 S2048x2048 S512x2048 [1] [0] [0] [1] [] []
  dot_S512x2048_S2048x8_S512x8_1_0_0_1_n_n_wf : DotDims.WF S512x2048 S2048x8 S512x8 [1] [0] [0] [1] [] []
  dot_S512x8_S8x2048_S512x2048_1_0_0_1_n_n_wf : DotDims.WF S512x8 S8x2048 S512x2048 [1] [0] [0] [1] [] []
  hrank0 : 0 < grid0.rank
  k0_off1_inb : ∀ i : grid0.Coords, ∀ a, (k0_off1 i) a + S1.size a ≤ S4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S4x2048x2048.size a
  hwx0_5 : ∀ i : grid0.Coords, EltTy.bits .f32 = 32 ∨ (Rect.block (s := S4x2048x2048) S1x512x2048.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x8_S512x8_1_0_0_1_n_n : DotDims S512x2048 S2048x8 S512x8 where
  lhsContracting := [1]
  rhsContracting := [0]
  lhsNonContracting := [0]
  rhsNonContracting := [1]
  lhsBatch := []
  rhsBatch := []
  wf := dot_S512x2048_S2048x8_S512x8_1_0_0_1_n_n_wf
def dot_S512x8_S8x2048_S512x2048_1_0_0_1_n_n : DotDims S512x8 S8x2048 S512x2048 where
  lhsContracting := [1]
  rhsContracting := [0]
  lhsNonContracting := [0]
  rhsNonContracting := [1]
  lhsBatch := []
  rhsBatch := []
  wf := dot_S512x8_S8x2048_S512x2048_1_0_0_1_n_n_wf

abbrev spec0_0 : Pipeline.WinSpec sig grid0.rank :=
  Pipeline.WinSpec.ofSpec (Memref.whole main_arg0) S1x512x2048.size reads0_0 false false 2 stage0_0 sem0_0 nbuf0_0 hstage0_0

abbrev spec0_1 : Pipeline.WinSpec sig grid0.rank :=
  Pipeline.WinSpec.ofSpec (Memref.whole main_v1) S2048x2048.size reads0_1 false true 1 stage0_1 sem0_1 nbuf0_1 hstage0_1

abbrev spec0_2 : Pipeline.WinSpec sig grid0.rank :=
  Pipeline.WinSpec.ofSpec (Memref.whole main_v0) S1x2048.size reads0_2 false true 1 stage0_2 sem0_2 nbuf0_2 hstage0_2

abbrev spec0_3 : Pipeline.WinSpec sig grid0.rank :=
  Pipeline.WinSpec.ofSpec (Memref.whole main_v2) S1x2048x8.size reads0_3 false false 2 stage0_3 sem0_3 nbuf0_3 hstage0_3

abbrev spec0_4 : Pipeline.WinSpec sig grid0.rank :=
  Pipeline.WinSpec.ofSpec (Memref.whole main_v5) S1x8x2048.size reads0_4 false false 2 stage0_4 sem0_4 nbuf0_4 hstage0_4

abbrev spec0_5 : Pipeline.WinSpec sig grid0.rank :=
  Pipeline.WinSpec.ofSpec (Memref.whole main_v6) S1x512x2048.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x2048x8.size a ≤ S8x2048x8.size a), EltTy.bits .bf16 = 32 ∨ (Rect.block (s := S8x2048x8) S1x2048x8.size (cc0_transform_3 k0_off1_inb numel1_S1 pf i) h).WholeWords (EltTy.packing .bf16)) ∧
  (∀ i : grid0.Coords, ∃ h : (∀ a, (cc0_transform_4 k0_off1_inb numel1_S1 pf i a + 1) * S1x8x2048.size a ≤ S8x8x2048.size a), EltTy.bits .bf16 = 32 ∨ (Rect.block (s := S8x8x2048) S1x8x2048.size (cc0_transform_4 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S4x2048x2048 : Shape := ⟨3, ![4, 2048, 2048]⟩
abbrev S4 : Shape := ⟨1, ![4]⟩
abbrev S2048x2048 : Shape := ⟨2, ![2048, 2048]⟩
abbrev S2048 : Shape := ⟨1, ![2048]⟩
abbrev S8x2048x8 : Shape := ⟨3, ![8, 2048, 8]⟩
abbrev S8x8x2048 : Shape := ⟨3, ![8, 8, 2048]⟩
abbrev S1x1x2048 : Shape := ⟨3, ![1, 1, 2048]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x2048x8 : Shape := ⟨3, ![4, 2048, 8]⟩
abbrev S4x8x2048 : Shape := ⟨3, ![4, 8, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4, .i32⟩
  | .hbm, ⟨2, _⟩ => ⟨S2048x2048, .f32⟩
  | .hbm, ⟨3, _⟩ => ⟨S2048, .f32⟩
  | .hbm, ⟨4, _⟩ => ⟨S8x2048x8, .f32⟩
  | .hbm, ⟨5, _⟩ => ⟨S8x8x2048, .f32⟩
  | .hbm, ⟨6, _⟩ => ⟨S4x2048x2048, .f32⟩
  | .hbm, ⟨7, _⟩ => ⟨S1x1x2048, .f32⟩
  | .hbm, ⟨8, _⟩ => ⟨S4x2048x2048, .f32⟩
  | .hbm, ⟨9, _⟩ => ⟨S4x2048x2048, .f32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S4x1, .i32⟩
  | .hbm, ⟨18, _⟩ => ⟨S1, .i32⟩
  | .hbm, ⟨19, _⟩ => ⟨S_, .i32⟩
  | .hbm, ⟨20, _⟩ => ⟨S4x1, .i32⟩
  | .hbm, ⟨21, _⟩ => ⟨S4x1, .i1⟩
  | .hbm, ⟨22, _⟩ => ⟨S1x1, .i32⟩
  | .hbm, ⟨23, _⟩ => ⟨S4x1, .i32⟩
  | .hbm, ⟨24, _⟩ => ⟨S4x1, .i1⟩
  | .hbm, ⟨25, _⟩ => ⟨S4x1, .i1⟩
  | .hbm, ⟨26, _⟩ => ⟨S_, .i1⟩
  | .hbm, ⟨27, _⟩ => ⟨S4, .i1⟩
  | .hbm, ⟨28, _⟩ => ⟨S4x2048x8, .f32⟩
  | .hbm, ⟨29, _⟩ => ⟨S4x2048x8, .i1⟩
  | .hbm, ⟨30, _⟩ => ⟨S_, .f32⟩
  | .hbm, ⟨31, _⟩ => ⟨S4x2048x8, .f32⟩
  | .hbm, ⟨32, _⟩ => ⟨S4x2048x8, .f32⟩
  | .hbm, ⟨33, _⟩ => ⟨S_, .i32⟩
  | .hbm, ⟨34, _⟩ => ⟨S4, .i32⟩
  | .hbm, ⟨35, _⟩ => ⟨S4, .i1⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .i32⟩
  | .hbm, ⟨40, _⟩ => ⟨S4x1, .i32⟩
  | .hbm, ⟨41, _⟩ => ⟨S1, .i32⟩
  | .hbm, ⟨42, _⟩ => ⟨S_, .i32⟩
  | .hbm, ⟨43, _⟩ => ⟨S4x1, .i32⟩
  | .hbm, ⟨44, _⟩ => ⟨S4x1, .i1⟩
  | .hbm, ⟨45, _⟩ => ⟨S1x1, .i32⟩
  | .hbm, ⟨46, _⟩ => ⟨S4x1, .i32⟩
  | .hbm, ⟨47, _⟩ => ⟨S4x1, .i1⟩
  | .hbm, ⟨48, _⟩ => ⟨S4x1, .i1⟩
  | .hbm, ⟨49, _⟩ => ⟨S_, .i1⟩
  | .hbm, ⟨50, _⟩ => ⟨S4, .i1⟩
  | .hbm, ⟨51, _⟩ => ⟨S4x8x2048, .f32⟩
  | .hbm, ⟨52, _⟩ => ⟨S4x8x2048, .i1⟩
  | .hbm, ⟨53, _⟩ => ⟨S_, .f32⟩
  | .hbm, ⟨54, _⟩ => ⟨S4x8x2048, .f32⟩
  | .hbm, ⟨55, _⟩ => ⟨S4x8x2048, .f32⟩
  | .hbm, ⟨56, _⟩ => ⟨S4x2048x8, .f32⟩
  | .hbm, ⟨57, _⟩ => ⟨S4x2048x2048, .f32⟩
  | .hbm, ⟨58, _⟩ => ⟨S_, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S4x2048x8_0 : S4.BroadcastsInDim S4x2048x8 (![0] : Fin 1 → Fin S4x2048x8.rank)
  bcast_S_S4x2048x8 : S_.BroadcastsInDim S4x2048x8 (![] : Fin 0 → Fin S4x2048x8.rank)
  bcast_S4_S4x8x2048_0 : S4.BroadcastsInDim S4x8x2048 (![0] : Fin 1 → Fin S4x8x2048.rank)
  bcast_S_S4x8x2048 : S_.BroadcastsInDim S4x8x2048 (![] : Fin 0 → Fin S4x8x2048.rank)
  bcast_S_S4x2048x2048 : S_.BroadcastsInDim S4x2048x2048 (![] : Fin 0 → Fin S4x2048x2048.rank)
  dot_S4x2048x2048_S2048x2048_S4x2048x2048_2_0_01_1_n_n_wf : DotDims.WF S4x2048x2048 S2048x2048 S4x2048x2048 [2] [0] [0, 1] [1] [] []
  gather_S8x2048x8_S4x1_S4x2048x8_12_0_n_n_0_1_120488_wf : GatherDims.WF S8x2048x8 S4x1 S4x2048x8 [1, 2] [0] [] [0] [] 1 ![1, 2048, 8]
  gather_S8x8x2048_S4x1_S4x8x2048_12_0_n_n_0_1_182048_wf : GatherDims.WF S8x8x2048 S4x1 S4x8x2048 [1, 2] [0] [] [0] [] 1 ![1, 8, 2048]
  dot_S4x2048x2048_S4x2048x8_S4x2048x8_2_1_1_2_0_0_wf : DotDims.WF S4x2048x2048 S4x2048x8 S4x2048x8 [2] [1] [1] [2] [0] [0]
  dot_S4x2048x8_S4x8x2048_S4x2048x2048_2_1_1_2_0_0_wf : DotDims.WF S4x2048x8 S4x8x2048 S4x2048x2048 [2] [1] [1] [2] [0] [0]

variable [Facts₀]

def dot_S4x2048x2048_S2048x2048_S4x2048x2048_2_0_01_1_n_n : DotDims S4x2048x2048 S2048x2048 S4x2048x2048 where
  lhsContracting := [2]
  rhsContracting := [0]
  lhsNonContracting := [0, 1]
  rhsNonContracting := [1]
  lhsBatch := []
  rhsBatch := []
  wf := dot_S4x2048x2048_S2048x2048_S4x2048x2048_2_0_01_1_n_n_wf
def gather_S8x2048x8_S4x1_S4x2048x8_12_0_n_n_0_1_120488 : GatherDims S8x2048x8 S4x1 S4x2048x8 where
  offsetDims := [1, 2]
  collapsedSliceDims := [0]
  operandBatchingDims := []
  startIndicesBatchingDims := []
  startIndexMap := [0]
  indexVectorDim := 1
  sliceSizes := ![1, 2048, 8]
  wf := gather_S8x2048x8_S4x1_S4x2048x8_12_0_n_n_0_1_120488_wf
def gather_S8x8x2048_S4x1_S4x8x2048_12_0_n_n_0_1_182048 : GatherDims S8x8x2048 S4x1 S4x8x2048 where
  offsetDims := [1, 2]
  collapsedSliceDims := [0]
  operandBatchingDims := []
  startIndicesBatchingDims := []
  startIndexMap := [0]
  indexVectorDim := 1
  sliceSizes := ![1, 8, 2048]
  wf := gather_S8x8x2048_S4x1_S4x8x2048_12_0_n_n_0_1_182048_wf
def dot_S4x2048x2048_S4x2048x8_S4x2048x8_2_1_1_2_0_0 : DotDims S4x2048x2048 S4x2048x8 S4x2048x8 where
  lhsContracting := [2]
  rhsContracting := [1]
  lhsNonContracting := [1]
  rhsNonContracting := [2]
  lhsBatch := [0]
  rhsBatch := [0]
  wf := dot_S4x2048x2048_S4x2048x8_S4x2048x8_2_1_1_2_0_0_wf
def dot_S4x2048x8_S4x8x2048_S4x2048x2048_2_1_1_2_0_0 : DotDims S4x2048x8 S4x8x2048 S4x2048x2048 where
  lhsContracting := [2]
  rhsContracting := [1]
  lhsNonContracting := [1]
  rhsNonContracting := [2]
  lhsBatch := [0]
  rhsBatch := [0]
  wf := dot_S4x2048x8_S4x8x2048_S4x2048x2048_2_1_1_2_0_0_wf

class Facts : Prop extends Facts₀ where

variable [Facts]
-- ==== Proof.Spec.lean ====
/-
  The result both programs compute, as one function of the argument arrays.

  For a sample `p`, a sequence position `s` and an output column `o`, with `e` the adapter the sample's
  id selects:  base = ∑_d x[p,s,d] · W[d,o],  low_r = ∑_d x[p,s,d] · A[e,d,r]  (r = 0 … 7).
  The kernel adds the routed correction with the scale folded into the right factor and the bias last,
      (base + ∑_r low_r · (C[e,r,o] · 2)) + b[o],
  the reference adds the bias first and scales the correction after its sum,
      (base + b[o]) + (∑_r low_r · C[e,r,o]) · 2.
  On the extended reals the two agree once x, A and C are finite: then every low_r and every C[e,r,o] is a
  real number, the factor 2 moves out of the finite sum (distributivity, which needs finiteness), and the
  three summands are regrouped by commutativity and associativity of addition alone (so W and b may be
  anything).  The adapter is read from the id word as `id mod 8`; for an id in [0, 8) that is the id.
-/
import Idealize.ShloMosaic.Lib.ValueIdx
import Idealize.ShloMosaic.PureOps.Ideal.Laws

noncomputable section

open scoped BigOperators

namespace Lora

open Idealize.ShloMosaic Idealize.ShloMosaic.ValueIdx

abbrev SX : Shape := ⟨3, ![4, 2048, 2048]⟩
abbrev SI : Shape := ⟨1, ![4]⟩
abbrev SW : Shape := ⟨2, ![2048, 2048]⟩
abbrev SB : Shape := ⟨1, ![2048]⟩
abbrev SA : Shape := ⟨3, ![8, 2048, 8]⟩
abbrev SC : Shape := ⟨3, ![8, 8, 2048]⟩

/-- The scale both programs spell as the single-precision word of 2.0. -/
def two : EReal := Ideal.ofBits .f32 0x40000000#32

theorem two_eq : two = ((2 : ℝ) : EReal) := by
  unfold two
  simp [Ideal.ofBits, Ideal.ieee, -EReal.coe_mul]; norm_num

/-- The adapter sample `p` selects: its id word modulo 8. -/
def sel (ids : SI.Idx → BitVec 32) (p : Fin 4) : Fin 8 :=
  ⟨(ids (ix1 p)).toNat % 8, Nat.mod_lt _ (by decide)⟩

theorem sel_val (ids : SI.Idx → BitVec 32) (p : Fin 4) (h : (ids (ix1 p)).toNat < 8) :
    (sel ids p).val = (ids (ix1 p)).toNat := Nat.mod_eq_of_lt h

/-- Entry (p, s, o) of x · W. -/
def base (x : SX.Idx → EReal) (W : SW.Idx → EReal) (p : Fin 4) (s o : Fin 2048) : EReal :=
  ∑ d : Fin 2048, x (ix3 p s d) * W (ix2 d o)

/-- Entry (p, s, r) of x · A[e]. -/
def low (x : SX.Idx → EReal) (A : SA.Idx → EReal) (e : Fin 8) (p : Fin 4) (s : Fin 2048) (r : Fin 8) : EReal :=
  ∑ d : Fin 2048, x (ix3 p s d) * A (ix3 e d r)

/-- The kernel's arrangement at (p, s, o) with adapter `e`. -/
def kernelAt (x : SX.Idx → EReal) (W : SW.Idx → EReal) (b : SB.Idx → EReal) (A : SA.Idx → EReal) (C : SC.Idx → EReal)
    (e : Fin 8) (p : Fin 4) (s o : Fin 2048) : EReal :=
  (base x W p s o + ∑ r : Fin 8, low x A e p s r * (C (ix3 e r o) * two)) + b (ix1 o)

/-- The reference's arrangement at (p, s, o) with adapter `e`. -/
def refAt (x : SX.Idx → EReal) (W : SW.Idx → EReal) (b : SB.Idx → EReal) (A : SA.Idx → EReal) (C : SC.Idx → EReal)
    (e : Fin 8) (p : Fin 4) (s o : Fin 2048) : EReal :=
  (base x W p s o + b (ix1 o)) + (∑ r : Fin 8, low x A e p s r * C (ix3 e r o)) * two

/-- The kernel's arrangement as a whole array. -/
def kernelForm (x : SX.Idx → EReal) (ids : SI.Idx → BitVec 32) (W : SW.Idx → EReal) (b : SB.Idx → EReal)
    (A : SA.Idx → EReal) (C : SC.Idx → EReal) : SX.Idx → EReal :=
  fun i => kernelAt x W b A C (sel ids (i 0)) (i 0) (i 1) (i 2)

/-- The reference's arrangement as a whole array. -/
def refForm (x : SX.Idx → EReal) (ids : SI.Idx → BitVec 32) (W : SW.Idx → EReal) (b : SB.Idx → EReal)
    (A : SA.Idx → EReal) (C : SC.Idx → EReal) : SX.Idx → EReal :=
  fun i => refAt x W b A C (sel ids (i 0)) (i 0) (i 1) (i 2)

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two arrangements agree at every coordinate when x, A and C are finite. -/
theorem kernelAt_eq_refAt (x : SX.Idx → EReal) (W : SW.Idx → EReal) (b : SB.Idx → EReal) (A : SA.Idx → EReal)
    (C : SC.Idx → EReal) (hx : ∀ i, ∃ t : ℝ, x i = (t : EReal)) (hA : ∀ i, ∃ t : ℝ, A i = (t : EReal))
    (hC : ∀ i, ∃ t : ℝ, C i = (t : EReal)) (e : Fin 8) (p : Fin 4) (s o : Fin 2048) :
    kernelAt x W b A C e p s o = refAt x W b A C e p s o := by
  choose xr hxr using hx
  choose Ar hAr using hA
  choose Cr hCr using hC
  have hlow : ∀ r : Fin 8, low x A e p s r
      = ((∑ d : Fin 2048, xr (ix3 p s d) * Ar (ix3 e d r) : ℝ) : EReal) := by
    intro r
    unfold low
    rw [coe_sum]
    exact Finset.sum_congr rfl fun d _ => by rw [hxr, hAr, EReal.coe_mul]
  have e1 : ∀ r : Fin 8, low x A e p s r * (C (ix3 e r o) * two)
      = ((((∑ d : Fin 2048, xr (ix3 p s d) * Ar (ix3 e d r)) * Cr (ix3 e r o)) * 2 : ℝ) : EReal) := by
    intro r
    rw [hlow r, hCr, two_eq, ← EReal.coe_mul, ← EReal.coe_mul, mul_assoc]
  have e2 : ∀ r : Fin 8, low x A e p s r * C (ix3 e r o)
      = (((∑ d : Fin 2048, xr (ix3 p s d) * Ar (ix3 e d r)) * Cr (ix3 e r o) : ℝ) : EReal) := by
    intro r
    rw [hlow r, hCr, ← EReal.coe_mul]
  have hD : ∑ r : Fin 8, low x A e p s r * (C (ix3 e r o) * two)
      = (∑ r : Fin 8, low x A e p s r * C (ix3 e r o)) * two := by
    rw [Finset.sum_congr rfl (fun r _ => e1 r), Finset.sum_congr rfl (fun r _ => e2 r), ← coe_sum, ← coe_sum,
      two_eq, ← EReal.coe_mul, Finset.sum_mul]
  unfold kernelAt refAt
  rw [hD, add_right_comm]

/-- The two arrays are equal when x, A and C are finite. -/
theorem kernelForm_eq_refForm (x : SX.Idx → EReal) (ids : SI.Idx → BitVec 32) (W : SW.Idx → EReal)
    (b : SB.Idx → EReal) (A : SA.Idx → EReal) (C : SC.Idx → EReal) (hx : ∀ i, ∃ t : ℝ, x i = (t : EReal))
    (hA : ∀ i, ∃ t : ℝ, A i = (t : EReal)) (hC : ∀ i, ∃ t : ℝ, C i = (t : EReal)) :
    kernelForm x ids W b A C = refForm x ids W b A C :=
  funext fun i => kernelAt_eq_refAt x W b A C hx hA hC _ _ _ _

end Lora

end
-- ==== Proof.PreDecode.lean ====
import proofs.«177709_g16707422781875_cont_week2b_1000_6_alg».proof.Proof.Gen.Pre_finite_inputs
import Idealize.ShloMosaic.Lib.ReduceAll
import Idealize.ShloMosaic.Lib.ValueIdx

noncomputable section
open Idealize.ShloMosaic

namespace Lora.PreDecode
open Cert.Pre_finite_inputs

/-- The shape with no axes has exactly one index. -/
instance : Subsingleton S_.Idx := ⟨fun a b => funext fun d => d.elim0⟩

/-- The precondition read entry by entry: it is a conjunction of six tests, each an "all" over one input.
    For a float input the test at an entry is |v| < +inf (the word 0x7F800000 read as a float); for the
    table of row numbers it is 0 ≤ id (signed) and id < 8 (signed). -/
theorem parts {F : FTy → Type} [FloatOps F] (a0 : FVec F S4x2048x2048 .f32) (a1 : IVec S4 32) (a2 : FVec F S2048x2048 .f32)
    (a3 : FVec F S2048 .f32) (a4 : FVec F S8x2048x8 .f32) (a5 : FVec F S8x8x2048 .f32)
    (h : fn (F := F) a0 a1 a2 a3 a4 a5 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, FloatOps.cmpf .olt (FloatOps.hostAbsf (a5 i)) (FloatOps.ofBits (F := F) .f32 0x7F800000#32) = 1#1)
    ∧ (∀ i, IntOp.cmpi .sge (a1 i) 0#32 = 1#1 ∧ IntOp.cmpi .slt (a1 i) 8#32 = 1#1) := by
  have e := congrFun h ValueIdx.ix0
  dsimp only [fn, fn_part1] at e
  simp only [andi, IntOp.andi_eq_one] at e
  obtain ⟨⟨⟨⟨⟨h0, -⟩, -⟩, h4⟩, h5⟩, h1⟩ := e
  refine ⟨fun i => ?_, fun i => ?_, fun i => ?_, fun i => ?_⟩
  · exact Host.reduce_andi_all _ _ _ _ _ h0 i
  · exact Host.reduce_andi_all _ _ _ _ _ h4 i
  · exact Host.reduce_andi_all _ _ _ _ _ h5 i
  · exact IntOp.andi_eq_one.1 (Host.reduce_andi_all _ _ _ _ _ h1 i)

/-- A 32-bit word that is ≥ 0 and < 8 as a signed number is < 8 as an unsigned one. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have h32 := w.isLt
  unfold BitVec.toInt at h0 h8
  split at h8 <;> omega

/-- Every row number of the table is below 8. -/
theorem ids_lt {F : FTy → Type} [FloatOps F] (a0 : FVec F S4x2048x2048 .f32) (a1 : IVec S4 32) (a2 : FVec F S2048x2048 .f32)
    (a3 : FVec F S2048 .f32) (a4 : FVec F S8x2048x8 .f32) (a5 : FVec F S8x8x2048 .f32)
    (h : fn (F := F) a0 a1 a2 a3 a4 a5 = fun _ => 1#1) (i : S4.Idx) : (a1 i).toNat < 8 :=
  have hp := (parts a0 a1 a2 a3 a4 a5 h).2.2.2 i
  toNat_lt_eight _ hp.1 hp.2

/-- An extended real whose absolute value max(v, -v) is below +inf is a real number. -/
theorem real_of_abs_lt (v : EReal)
    (hv : FloatOps.cmpf (F := Ideal) (φ := .f32) .olt (FloatOps.hostAbsf (F := Ideal) (φ := .f32) v)
      (FloatOps.ofBits (F := Ideal) .f32 0x7F800000#32) = 1#1) : ∃ t : ℝ, v = (t : EReal) := by
  have htop : Ideal.ofBits .f32 0x7F800000#32 = (⊤ : EReal) := by simp [Ideal.ofBits, Ideal.ieee]
  change Ideal.cmp .olt (max v (-v)) (Ideal.ofBits .f32 0x7F800000#32) = 1#1 at hv
  rw [htop] at hv
  induction v using EReal.rec with
  | bot => exact absurd hv (by simp [Ideal.cmp])
  | coe t => exact ⟨t, rfl⟩
  | top => exact absurd hv (by simp [Ideal.cmp])

theorem finite_x (a0 : FVec Ideal S4x2048x2048 .f32) (a1 : IVec S4 32) (a2 : FVec Ideal S2048x2048 .f32)
    (a3 : FVec Ideal S2048 .f32) (a4 : FVec Ideal S8x2048x8 .f32) (a5 : FVec Ideal S8x8x2048 .f32)
    (h : fn (F := Ideal) a0 a1 a2 a3 a4 a5 = fun _ => 1#1) (i : S4x2048x2048.Idx) : ∃ t : ℝ, a0 i = (t : EReal) :=
  real_of_abs_lt _ ((parts a0 a1 a2 a3 a4 a5 h).1 i)
theorem finite_A (a0 : FVec Ideal S4x2048x2048 .f32) (a1 : IVec S4 32) (a2 : FVec Ideal S2048x2048 .f32)
    (a3 : FVec Ideal S2048 .f32) (a4 : FVec Ideal S8x2048x8 .f32) (a5 : FVec Ideal S8x8x2048 .f32)
    (h : fn (F := Ideal) a0 a1 a2 a3 a4 a5 = fun _ => 1#1) (i : S8x2048x8.Idx) : ∃ t : ℝ, a4 i = (t : EReal) :=
  real_of_abs_lt _ ((parts a0 a1 a2 a3 a4 a5 h).2.1 i)
theorem finite_C (a0 : FVec Ideal S4x2048x2048 .f32) (a1 : IVec S4 32) (a2 : FVec Ideal S2048x2048 .f32)
    (a3 : FVec Ideal S2048 .f32) (a4 : FVec Ideal S8x2048x8 .f32) (a5 : FVec Ideal S8x8x2048 .f32)
    (h : fn (F := Ideal) a0 a1 a2 a3 a4 a5 = fun _ => 1#1) (i : S8x8x2048.Idx) : ∃ t : ℝ, a5 i = (t : EReal) :=
  real_of_abs_lt _ ((parts a0 a1 a2 a3 a4 a5 h).2.2.1 i)

end Lora.PreDecode
end
-- ==== Proof.OkKernel.lean ====
import proofs.«177709_g16707422781875_cont_week2b_1000_6_alg».proof.Defs
import proofs.«177709_g16707422781875_cont_week2b_1000_6_alg».proof.Proof.Gen.Kernel.Frame
import proofs.«177709_g16707422781875_cont_week2b_1000_6_alg».proof.Proof.Gen.Pre_finite_inputs
import proofs.«177709_g16707422781875_cont_week2b_1000_6_alg».proof.Proof.PreDecode

set_option maxRecDepth 16384

noncomputable section

namespace Cert.Kernel.OkOfPre

open Cert.Kernel Cert.Kernel.Gen
open Idealize.ShloMosaic Idealize.ShloMosaic.TcCoe Idealize.SL.Sem

/-- The side condition of the table-indexed blocks, with the table's contents a variable. The blocks of the two
    low-rank factors, [1, 2048, 8] of [8, 2048, 8] and [1, 8, 2048] of [8, 8, 2048], sit at block index (w, 0, 0),
    w the table's word at the grid point's first coordinate. When every word of the table is below 8 (unsigned)
    the block ends at (w + 1) · 1 ≤ 8 on the leading axis and fills the other two axes, so it lies inside the
    array; and its row axis (2048 resp. 8 rows) is a multiple of the two 16-bit elements a word packs, so the
    block is made of whole words. -/
theorem ok0_of_lt {F : FTy → Type} [FloatOps F] (pf : pre0.Contents (Elt F))
    (hpf : ∀ i : S4.Idx, (pf 0 i).toNat < 8) : ok0 pf := by
  refine ⟨fun i => ?_, fun i => ?_⟩
  · obtain ⟨w, hw, e⟩ : ∃ w : BitVec 32, w.toNat < 8 ∧ cc0_transform_3 k0_off1_inb numel1_S1 pf i = ![w.toNat, 0, 0] :=
      ⟨_, hpf _, rfl⟩
    refine ⟨fun a => ?_, Or.inr (Affine.block_words_dvd (of_decide_eq_true rfl) (by decide))⟩
    rw [e]
    fin_cases a <;> simp [S1x2048x8, S8x2048x8] <;> omega
  · obtain ⟨w, hw, e⟩ : ∃ w : BitVec 32, w.toNat < 8 ∧ cc0_transform_4 k0_off1_inb numel1_S1 pf i = ![w.toNat, 0, 0] :=
      ⟨_, hpf _, rfl⟩
    refine ⟨fun a => ?_, Or.inr (Affine.block_words_dvd (of_decide_eq_true rfl) (by decide))⟩
    rw [e]
    fin_cases a <;> simp [S1x8x2048, S8x8x2048] <;> omega

/-- Under the precondition the table the region finds is the launch memory's table of row numbers (no host
    operation writes it), and the precondition says each of its four words is ≥ 0 and < 8 signed, hence < 8
    unsigned: the side condition holds. -/
theorem ok_of_pre (m : (ℓ : Loc nD τ sig) → Buf (Elt Bits) ℓ) (h : Cert.Pre_Kernel m) : Ok m := by
  refine ok0_of_lt (tbl m) (fun i => ?_)
  have e : tbl m 0 = m (((0 : Dev nD) : Thread nD τ).loc main_arg1) := V_main_arg1 m 0
  rw [e]
  exact Lora.PreDecode.ids_lt _ _ _ _ _ _ (h 0) i

end Cert.Kernel.OkOfPre

end
-- ==== Proof.OkKernelIdeal.lean ====
import proofs.«177709_g16707422781875_cont_week2b_1000_6_alg».proof.Defs
import proofs.«177709_g16707422781875_cont_week2b_1000_6_alg».proof.Proof.Gen.KernelIdeal.Frame
import proofs.«177709_g16707422781875_cont_week2b_1000_6_alg».proof.Proof.Gen.Pre_finite_inputs
import proofs.«177709_g16707422781875_cont_week2b_1000_6_alg».proof.Proof.PreDecode

set_option maxRecDepth 16384

noncomputable section

namespace Cert.KernelIdeal.OkOfPre

open Cert.KernelIdeal Cert.KernelIdeal.Gen
open Idealize.ShloMosaic Idealize.ShloMosaic.TcCoe Idealize.SL.Sem

/-- The side condition of the table-indexed blocks, with the table's contents a variable. The blocks of the two
    low-rank factors, [1, 2048, 8] of [8, 2048, 8] and [1, 8, 2048] of [8, 8, 2048], sit at block index (w, 0, 0),
    w the table's word at the grid point's first coordinate. When every word of the table is below 8 (unsigned)
    the block ends at (w + 1) · 1 ≤ 8 on the leading axis and fills the other two axes, so it lies inside the
    array; and its row axis (2048 resp. 8 rows) is a multiple of the two 16-bit elements a word packs, so the
    block is made of whole words. -/
theorem ok0_of_lt {F : FTy → Type} [FloatOps F] (pf : pre0.Contents (Elt F))
    (hpf : ∀ i : S4.Idx, (pf 0 i).toNat < 8) : ok0 pf := by
  refine ⟨fun i => ?_, fun i => ?_⟩
  · obtain ⟨w, hw, e⟩ : ∃ w : BitVec 32, w.toNat < 8 ∧ cc0_transform_3 k0_off1_inb numel1_S1 pf i = ![w.toNat, 0, 0] :=
      ⟨_, hpf _, rfl⟩
    refine ⟨fun a => ?_, Or.inr (Affine.block_words_dvd (of_decide_eq_true rfl) (by decide))⟩
    rw [e]
    fin_cases a <;> simp [S1x2048x8, S8x2048x8] <;> omega
  · obtain ⟨w, hw, e⟩ : ∃ w : BitVec 32, w.toNat < 8 ∧ cc0_transform_4 k0_off1_inb numel1_S1 pf i = ![w.toNat, 0, 0] :=
      ⟨_, hpf _, rfl⟩
    refine ⟨fun a => ?_, Or.inr (Affine.block_words_dvd (of_decide_eq_true rfl) (by decide))⟩
    rw [e]
    fin_cases a <;> simp [S1x8x2048, S8x8x2048] <;> omega

/-- Under the precondition the table the region finds is the launch memory's table of row numbers (no host
    operation writes it), and the precondition says each of its four words is ≥ 0 and < 8 signed, hence < 8
    unsigned: the side condition holds. -/
theorem ok_of_pre (m : (ℓ : Loc nD τ sig) → Buf (Elt Ideal) ℓ) (h : Cert.Pre_KernelIdeal m) : Ok m := by
  refine ok0_of_lt (tbl m) (fun i => ?_)
  have e : tbl m 0 = m (((0 : Dev nD) : Thread nD τ).loc main_arg1) := V_main_arg1 m 0
  rw [e]
  exact Lora.PreDecode.ids_lt _ _ _ _ _ _ (h 0) i

end Cert.KernelIdeal.OkOfPre

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.KernelPay.lean ====
/-
  The kernel body's stored value at an index, on the extended reals.

  The body loads a block x0 of x ([1, 512, 2048]), the whole of W ([2048, 2048]), one adapter slice a of A
  ([1, 2048, 8]), the matching slice c of the scaled C ([1, 8, 2048]) and the bias row ([1, 2048]); it stores
      (x0 · W + (x0 · a) · c) + bias
  as a [1, 512, 2048] block.  Read at (0, s, o) this is
      (∑_d x0[0,s,d] · W[d,o] + ∑_r (∑_d x0[0,s,d] · a[0,d,r]) · c[0,r,o]) + bias[0,o]:
  each matrix product starts from the zero accumulator, so it is the plain sum over the contracted axis; the
  changes of float format are the identity on the extended reals; the casts drop or add a leading unit axis and
  the bias row is broadcast down the 512 rows.
-/
import proofs.«177709_g16707422781875_cont_week2b_1000_6_alg».proof.Proof.Gen.KernelIdeal.Skeleton
import proofs.«177709_g16707422781875_cont_week2b_1000_6_alg».proof.Proof.LibMatProd
import Idealize.ShloMosaic.Lib.ValueLayout
import Idealize.ShloMosaic.Lib.Pipeline.Value
import Idealize.ShloMosaic.Lib.ValueIdx

noncomputable section

open scoped BigOperators

namespace Cert.KernelIdeal.Pay

open Idealize.ShloMosaic Idealize.ShloMosaic.ValueIdx Cert.KernelIdeal Cert.KernelIdeal.Gen MatProd

/-- The stored block at row `s`, column `o`, as a formula of the five loaded blocks. -/
def blockAt (x0 : S1x512x2048.Idx → EReal) (w : S2048x2048.Idx → EReal) (a : S1x2048x8.Idx → EReal)
    (c : S1x8x2048.Idx → EReal) (bias : S1x2048.Idx → EReal) (s : Fin 512) (o : Fin 2048) : EReal :=
  ((∑ d : Fin 2048, x0 (ix3 (0 : Fin 1) s d) * w (ix2 d o))
    + ∑ r : Fin 8, (∑ d : Fin 2048, x0 (ix3 (0 : Fin 1) s d) * a (ix3 (0 : Fin 1) d r)) * c (ix3 (0 : Fin 1) r o))
    + bias (ix2 (0 : Fin 1) o)

/-- The body's stored value read at (u, s, o). -/
theorem pay_apply (v0 : Vec Ideal S1x512x2048 .f32) (v3 : Vec Ideal S2048x2048 .bf16) (v5 : Vec Ideal S1x2048x8 .bf16)
    (v7 : Vec Ideal S1x8x2048 .bf16) (v14 : Vec Ideal S1x2048 .f32) (u : Fin 1) (s : Fin 512) (o : Fin 2048) :
    k0_pay1 (F := Ideal) v0 v3 v5 v7 v14 (ix3 u s o) = blockAt v0 v3 v5 v7 v14 s o := by
  unfold k0_pay1 blockAt
  refine (shapeCast_ab_1ab_apply _ _ u s o).trans ?_
  refine congrArg₂ (· + ·) (congrArg₂ (· + ·) ?_ ?_) ?_
  · -- x0 · W at (s, o)
    refine (matmul_zero_entry _ none rfl rfl (fun _ _ => rfl) (fun _ _ => rfl) (fun _ _ => rfl) (fun _ _ => rfl)
      _ _ s o).trans ?_
    unfold entry
    refine Finset.sum_congr rfl fun d _ => congrArg₂ (· * ·) ?_ ?_
    · exact shapeCast_1ab_ab_apply v0 _ s d
    · exact congrFun (shapeCast_self v3 _) _
  · -- (x0 · a) · c at (s, o)
    refine (matmul_zero_entry _ none rfl rfl (fun _ _ => rfl) (fun _ _ => rfl) (fun _ _ => rfl) (fun _ _ => rfl)
      _ _ s o).trans ?_
    unfold entry
    refine Finset.sum_congr rfl fun r _ => congrArg₂ (· * ·) ?_ ?_
    · refine (matmul_zero_entry _ none rfl rfl (fun _ _ => rfl) (fun _ _ => rfl) (fun _ _ => rfl) (fun _ _ => rfl)
        _ _ s r).trans ?_
      unfold entry
      refine Finset.sum_congr rfl fun d _ => congrArg₂ (· * ·) ?_ ?_
      · exact shapeCast_1ab_ab_apply v0 _ s d
      · exact shapeCast_1ab_ab_apply v5 _ d r
    · exact shapeCast_1ab_ab_apply v7 _ r o
  · -- the bias row, broadcast down the rows
    refine (broadcastTo_1b_ab_apply _ _ s o).trans ?_
    exact congrFun (shapeCast_self v14 _) _

end Cert.KernelIdeal.Pay

end
-- ==== Proof.KernelOut.lean ====
/-
  What the kernel body leaves in the output's staging buffer: its one store covers the whole [1, 512, 2048]
  block, so the buffer ends holding the stored value, and the stored value is the body's arithmetic of the five
  blocks it loaded whole (x, W, the adapter slices of A and of the scaled C, the bias row).
-/
import proofs.«177709_g16707422781875_cont_week2b_1000_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Out

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The output's staging buffer after the body is the body's arithmetic of the loaded blocks. -/
theorem out_eq (c : Dev nD) (i : grid0.Coords) (arg3 : Memref sig .tc .vmem S1x512x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048x8 .bf16) (harg6 : arg6.IsWhole) (arg7 : Memref sig .tc .vmem S1x8x2048 .bf16) (harg7 : arg7.IsWhole) (arg8 : Memref sig .tc .vmem S1x512x2048 .f32) (harg8 : arg8.IsWhole)
    (x0 : Vec F S1x512x2048 .f32) (x1 : Vec F S2048x2048 .bf16) (x2 : Vec F S1x2048 .f32) (x3 : Vec F S1x2048x8 .bf16) (x4 : Vec F S1x8x2048 .bf16) (xt0 : TbBuf0 (F := F) c tbM0_0) :
    out0_A_5 c i arg3 harg3 arg4 harg4 arg5 harg5 arg6 harg6 arg7 harg7 arg8 harg8 x0 x1 x2 x3 x4 xt0 = k0_pay1 x0 x1 x3 x4 x2 := by
  unfold out0_A_5
  rw [View.read_writes_eq_canon _ _ _ (cover0_A_5 c i arg3 harg3 arg4 harg4 arg5 harg5 arg6 harg6 arg7 harg7 arg8 harg8 x0 x1 x2 x3 x4 xt0)]
  unfold kernelRun0_A
  dsimp only
  rw [View.canon_unit_zero hz3]
  simp only [View.readAt_eq_ld, harg3.read_unread, harg4.read_unread, harg5.read_unread, harg6.read_unread,
    harg7.read_unread, View.ld_unit_zero (S := S1x512x2048) hz3, View.ld_unit_zero (S := S2048x2048) hz2,
    View.ld_unit_zero (S := S1x2048x8) hz3, View.ld_unit_zero (S := S1x8x2048) hz3,
    View.ld_unit_zero (S := S1x2048) hz2]

end Cert.KernelIdeal.Out

end
-- ==== Proof.KernelBlocks.lean ====
/-
  Where each window's block sits in its array, at a grid point t = (p, q) of the 4 × 4 grid (p the sample, q the
  sequence tile).  An element of a block sits, on every axis, at block index × block size + its own coordinate.
    x and the result, blocks [1, 512, 2048] at block index (p, q, 0): element (0, s, d) is (p, 512 q + s, d);
    W [2048, 2048] and the bias row [1, 2048], one block at index 0: an element keeps its coordinates;
    A, blocks [1, 2048, 8], and the scaled C, blocks [1, 8, 2048], at block index (id_p, 0, 0) where id_p is the
    id-table word of sample p: element (0, d, r) is (id_p, d, r), provided id_p < 8.
  The index maps of the last two read the id table; everything about them is stated for ANY contents of the
  table, the word itself a variable.
-/
import proofs.«177709_g16707422781875_cont_week2b_1000_6_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]

/-- The sample and the sequence tile of grid point `t`. -/
def gp (t : Fin grid0.N) : Fin 4 := grid0.coords t 0
def gq (t : Fin grid0.N) : Fin 4 := grid0.coords t 1

/-- The index maps that read no table, decided over the sixteen grid points. -/
theorem idx0 : ∀ t : Fin grid0.N, cc0_transform_0 (grid0.coords t) 0 = (gp t).val ∧ cc0_transform_0 (grid0.coords t) 1 = (gq t).val
    ∧ cc0_transform_0 (grid0.coords t) 2 = 0 := by decide +kernel
theorem idx5 : ∀ t : Fin grid0.N, cc0_transform_5 (grid0.coords t) 0 = (gp t).val ∧ cc0_transform_5 (grid0.coords t) 1 = (gq t).val
    ∧ cc0_transform_5 (grid0.coords t) 2 = 0 := by decide +kernel
theorem idx1 : ∀ t : Fin grid0.N, cc0_transform_1 (grid0.coords t) 0 = 0 ∧ cc0_transform_1 (grid0.coords t) 1 = 0 := by decide +kernel
theorem idx2 : ∀ t : Fin grid0.N, cc0_transform_2 (grid0.coords t) 0 = 0 ∧ cc0_transform_2 (grid0.coords t) 1 = 0 := by decide +kernel
theorem off1 : ∀ t : Fin grid0.N, k0_off1 (grid0.coords t) 0 = (gp t).val := by decide +kernel

/-- Element (u, s, d) of x's block at point t. -/
theorem emb0 (a : (pcfg0 (F := F)).Adm) (t : Fin (cfg0 a).N) (u : Fin 1) (s : Fin 512) (d : Fin 2048) :
    (((cfg0 a).win 0).blk t).view.emb (ix3 u s d)
      = ix3 (gp t) (⟨(gq t).val * 512 + s.val, by have := (gq t).isLt; omega⟩ : Fin 2048) d := by
  obtain ⟨e0, e1, e2⟩ := idx0 t
  funext ax; apply Fin.ext
  match ax with
  | ⟨0, _⟩ => show cc0_transform_0 (grid0.coords t) 0 * 1 + 1 * u.val = (gp t).val; rw [e0]; omega
  | ⟨1, _⟩ => show cc0_transform_0 (grid0.coords t) 1 * 512 + 1 * s.val = (gq t).val * 512 + s.val; rw [e1]; omega
  | ⟨2, _⟩ => show cc0_transform_0 (grid0.coords t) 2 * 2048 + 1 * d.val = d.val; rw [e2]; omega

/-- Element (u, s, o) of the result's block at point t. -/
theorem emb5 (a : (pcfg0 (F := F)).Adm) (t : Fin (cfg0 a).N) (u : Fin 1) (s : Fin 512) (o : Fin 2048) :
    (((cfg0 a).win 5).blk t).view.emb (ix3 u s o)
      = ix3 (gp t) (⟨(gq t).val * 512 + s.val, by have := (gq t).isLt; omega⟩ : Fin 2048) o := by
  obtain ⟨e0, e1, e2⟩ := idx5 t
  funext ax; apply Fin.ext
  match ax with
  | ⟨0, _⟩ => show cc0_transform_5 (grid0.coords t) 0 * 1 + 1 * u.val = (gp t).val; rw [e0]; omega
  | ⟨1, _⟩ => show cc0_transform_5 (grid0.coords t) 1 * 512 + 1 * s.val = (gq t).val * 512 + s.val; rw [e1]; omega
  | ⟨2, _⟩ => show cc0_transform_5 (grid0.coords t) 2 * 2048 + 1 * o.val = o.val; rw [e2]; omega

/-- W's one block is the whole array. -/
theorem emb1 (a : (pcfg0 (F := F)).Adm) (t : Fin (cfg0 a).N) (d : Fin 2048) (o : Fin 2048) :
    (((cfg0 a).win 1).blk t).view.emb (ix2 d o) = ix2 d o := by
  obtain ⟨e0, e1⟩ := idx1 t
  funext ax; apply Fin.ext
  match ax with
  | ⟨0, _⟩ => show cc0_transform_1 (grid0.coords t) 0 * 2048 + 1 * d.val = d.val; rw [e0]; omega
  | ⟨1, _⟩ => show cc0_transform_1 (grid0.coords t) 1 * 2048 + 1 * o.val = o.val; rw [e1]; omega

/-- The bias row's one block is the whole array. -/
theorem emb2 (a : (pcfg0 (F := F)).Adm) (t : Fin (cfg0 a).N) (u : Fin 1) (o : Fin 2048) :
    (((cfg0 a).win 2).blk t).view.emb (ix2 u o) = ix2 (0 : Fin 1) o := by
  obtain ⟨e0, e1⟩ := idx2 t
  funext ax; apply Fin.ext
  match ax with
  | ⟨0, _⟩ => show cc0_transform_2 (grid0.coords t) 0 * 1 + 1 * u.val = 0; rw [e0]; omega
  | ⟨1, _⟩ => show cc0_transform_2 (grid0.coords t) 1 * 2048 + 1 * o.val = o.val; rw [e1]; omega

/-- The one index of a unit rectangle at offset k of the id table is index k. -/
theorem emb_first (k : Fin 4) (off : Fin 1 → Nat) (hoff : off 0 = k.val) (inb : ∀ a, off a + S1.size a ≤ S4.size a)
    (h1 : 0 < S1.numel) : (Rect.unit (s := S4) off S1.size inb).emb (Shape.Idx.first h1) = ix1 k := by
  funext ax; apply Fin.ext
  match ax with
  | ⟨0, _⟩ =>
    show off 0 + 1 * (Shape.Idx.first h1 (0 : Fin 1)).val = k.val
    have h0 : (Shape.Idx.first h1 (0 : Fin 1)).val = 0 := by
      have := (Shape.Idx.first h1 (0 : Fin 1)).isLt
      have e : S1.size (0 : Fin 1) = 1 := by decide
      omega
    rw [h0, hoff]; omega

/-- The A window's block index at point t, for any contents of the id table: the id word of the point's sample. -/
theorem tr3 (pf : pre0.Contents (Elt F)) (t : Fin grid0.N) :
    cc0_transform_3 Facts₀.k0_off1_inb Facts₀.numel1_S1 pf (grid0.coords t) = ![(pf 0 (ix1 (gp t))).toNat, 0, 0] := by
  have e := emb_first (gp t) ![(Scalar.indexCast (BitVec.ofNat 32 (grid0.coords t 0).val)).toNat] (off1 t)
    (Facts₀.k0_off1_inb (grid0.coords t)) (Facts₀.numel1_S1.symm ▸ Nat.one_pos)
  exact congrArg (fun z : S4.Idx => ![(pf 0 z).toNat, (0#32).toNat, (0#32).toNat]) e

/-- The same for the scaled C's window. -/
theorem tr4 (pf : pre0.Contents (Elt F)) (t : Fin grid0.N) :
    cc0_transform_4 Facts₀.k0_off1_inb Facts₀.numel1_S1 pf (grid0.coords t) = ![(pf 0 (ix1 (gp t))).toNat, 0, 0] := by
  have e := emb_first (gp t) ![(Scalar.indexCast (BitVec.ofNat 32 (grid0.coords t 0).val)).toNat] (off1 t)
    (Facts₀.k0_off1_inb (grid0.coords t)) (Facts₀.numel1_S1.symm ▸ Nat.one_pos)
  exact congrArg (fun z : S4.Idx => ![(pf 0 z).toNat, (0#32).toNat, (0#32).toNat]) e

/-- Element (u, d, r) of A's block at point t, when the point's id word is below 8. -/
theorem emb3 (a : (pcfg0 (F := F)).Adm) (t : Fin (cfg0 a).N) (hlt : (a.1 0 (ix1 (gp t))).toNat < 8)
    (u : Fin 1) (d : Fin 2048) (r : Fin 8) :
    (((cfg0 a).win 3).blk t).view.emb (ix3 u d r) = ix3 (⟨(a.1 0 (ix1 (gp t))).toNat, hlt⟩ : Fin 8) d r := by
  have e := tr3 a.1 t
  funext ax; apply Fin.ext
  match ax with
  | ⟨0, _⟩ =>
    show cc0_transform_3 Facts₀.k0_off1_inb Facts₀.numel1_S1 a.1 (grid0.coords t) 0 * 1 + 1 * u.val = (a.1 0 (ix1 (gp t))).toNat
    rw [e]; show (a.1 0 (ix1 (gp t))).toNat * 1 + 1 * u.val = _; omega
  | ⟨1, _⟩ =>
    show cc0_transform_3 Facts₀.k0_off1_inb Facts₀.numel1_S1 a.1 (grid0.coords t) 1 * 2048 + 1 * d.val = d.val
    rw [e]; show 0 * 2048 + 1 * d.val = d.val; omega
  | ⟨2, _⟩ =>
    show cc0_transform_3 Facts₀.k0_off1_inb Facts₀.numel1_S1 a.1 (grid0.coords t) 2 * 8 + 1 * r.val = r.val
    rw [e]; show 0 * 8 + 1 * r.val = r.val; omega

/-- Element (u, r, o) of the scaled C's block at point t, when the point's id word is below 8. -/
theorem emb4 (a : (pcfg0 (F := F)).Adm) (t : Fin (cfg0 a).N) (hlt : (a.1 0 (ix1 (gp t))).toNat < 8)
    (u : Fin 1) (r : Fin 8) (o : Fin 2048) :
    (((cfg0 a).win 4).blk t).view.emb (ix3 u r o) = ix3 (⟨(a.1 0 (ix1 (gp t))).toNat, hlt⟩ : Fin 8) r o := by
  have e := tr4 a.1 t
  funext ax; apply Fin.ext
  match ax with
  | ⟨0, _⟩ =>
    show cc0_transform_4 Facts₀.k0_off1_inb Facts₀.numel1_S1 a.1 (grid0.coords t) 0 * 1 + 1 * u.val = (a.1 0 (ix1 (gp t))).toNat
    rw [e]; show (a.1 0 (ix1 (gp t))).toNat * 1 + 1 * u.val = _; omega
  | ⟨1, _⟩ =>
    show cc0_transform_4 Facts₀.k0_off1_inb Facts₀.numel1_S1 a.1 (grid0.coords t) 1 * 8 + 1 * r.val = r.val
    rw [e]; show 0 * 8 + 1 * r.val = r.val; omega
  | ⟨2, _⟩ =>
    show cc0_transform_4 Facts₀.k0_off1_inb Facts₀.numel1_S1 a.1 (grid0.coords t) 2 * 2048 + 1 * o.val = o.val
    rw [e]; show 0 * 2048 + 1 * o.val = o.val; omega

end Cert.KernelIdeal.Blocks

end
-- ==== Proof.KernelHost.lean ====
/-
  What the kernel's program has in the arrays its windows stage when the pallas region is entered, on the
  extended reals.  Before the region the host casts W and A to a narrower float format (the identity on the
  extended reals), reshapes the bias [2048] to one row [1, 2048], and multiplies C by the constant 2 before
  casting it: so the region finds W, A, the bias as a row, and C · 2.
-/
import proofs.«177709_g16707422781875_cont_week2b_1000_6_alg».proof.Proof.Gen.KernelIdeal.Frame
import proofs.«177709_g16707422781875_cont_week2b_1000_6_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.HostPrefix

open Cert.KernelIdeal Cert.KernelIdeal.Gen Idealize.ShloMosaic.ValueIdx

variable (m : (ℓ : Loc nD τ sig) → Buf (Elt Ideal) ℓ)

/-- The cast of W holds W. -/
theorem V_v1 (c : Dev nD) : (V m c main_v1 : S2048x2048.Idx → EReal) = m ((c : Thread nD τ).loc main_arg2) := by
  dsimp only [Gen.V, Gen.hostOps0]; after_results; rfl

/-- The cast of A holds A. -/
theorem V_v2 (c : Dev nD) : (V m c main_v2 : S8x2048x8.Idx → EReal) = m ((c : Thread nD τ).loc main_arg4) := by
  dsimp only [Gen.V, Gen.hostOps0]; after_results; rfl

/-- The bias as one row. -/
theorem V_v0 (c : Dev nD) : (V m c main_v0 : S1x2048.Idx → EReal) = shapeCast S1x2048 (m ((c : Thread nD τ).loc main_arg3)) Facts₀.shapeCasts_S2048_S1x2048 := by
  dsimp only [Gen.V, Gen.hostOps0]; after_results; rfl

/-- C times the broadcast constant. -/
theorem V_v5 (c : Dev nD) : (V m c main_v5 : S8x8x2048.Idx → EReal) = mulf (m ((c : Thread nD τ).loc main_arg5)) (broadcastInDim S8x8x2048 ![] Facts₀.bcast_S_S8x8x2048 (constant (F := Ideal) S_ .f32 0x40000000#32)) := by
  dsimp only [Gen.V, Gen.hostOps0]; after_results; rfl

theorem V_v1_apply (c : Dev nD) (i : S2048x2048.Idx) : V m c main_v1 i = m ((c : Thread nD τ).loc main_arg2) i :=
  congrFun (V_v1 m c) i

theorem V_v2_apply (c : Dev nD) (i : S8x2048x8.Idx) : V m c main_v2 i = m ((c : Thread nD τ).loc main_arg4) i :=
  congrFun (V_v2 m c) i

/-- The bias row at (u, o) is b[o]. -/
theorem V_v0_apply (c : Dev nD) (u : Fin 1) (o : Fin 2048) :
    V m c main_v0 (ix2 u o) = m ((c : Thread nD τ).loc main_arg3) (ix1 o) :=
  (congrFun (V_v0 m c) (ix2 u o)).trans (shapeCast_a_1a_apply _ _ u o)

/-- C as an array of extended reals. -/
abbrev argC (c : Dev nD) : S8x8x2048.Idx → EReal := m ((c : Thread nD τ).loc main_arg5)

/-- The scaled C at an index is C there times 2. -/
theorem V_v5_apply (c : Dev nD) (i : S8x8x2048.Idx) :
    V m c main_v5 i = argC m c i * Lora.two :=
  (congrFun (V_v5 m c) i).trans (by
    show argC m c i
      * broadcastInDim S8x8x2048 ![] Facts₀.bcast_S_S8x8x2048 (constant (F := Ideal) S_ .f32 0x40000000#32) i = _
    rw [broadcastInDim_apply _ _ _ i ValueIdx.ix0 (fun a => a.elim0)]
    rfl)

end Cert.KernelIdeal.HostPrefix

end
-- ==== Proof.KernelValue.lean ====
/-
  The idealized kernel's result array after its run, on the extended reals.

  At grid point t = (p, q) the body's staging buffer ends holding (x0 · W + (x0 · a) · c) + bias of the blocks the
  windows fetched: x0 = rows 512 q … 512 q + 511 of sample p of x, W whole, the bias row, a = slice id_p of A and
  c = slice id_p of C · 2, id_p the id-table word of sample p (below 8 by hypothesis, so the blocks are slices of A
  and C).  Read at (0, s, o) this is the kernel's arrangement of the argument arrays at (p, 512 q + s, o): so what
  point t writes back is block t of one whole-array function (flushed_eq).  Every index (p, r, o) of the result is
  element (0, r mod 512, o) of the block of point (p, r / 512), so the sixteen blocks cover the array (cover), and the
  array ends holding that function (final); the arguments are unchanged (run).
-/
import proofs.«177709_g16707422781875_cont_week2b_1000_6_alg».proof.Proof.Gen.KernelIdeal.Frame
import proofs.«177709_g16707422781875_cont_week2b_1000_6_alg».proof.Proof.Spec
import proofs.«177709_g16707422781875_cont_week2b_1000_6_alg».proof.Proof.KernelPay
import proofs.«177709_g16707422781875_cont_week2b_1000_6_alg».proof.Proof.KernelOut
import proofs.«177709_g16707422781875_cont_week2b_1000_6_alg».proof.Proof.KernelBlocks
import proofs.«177709_g16707422781875_cont_week2b_1000_6_alg».proof.Proof.KernelHost
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx Cert.KernelIdeal.Blocks Cert.KernelIdeal.HostPrefix

variable (m : (ℓ : Loc nD τ sig) → Buf (Elt Ideal) ℓ) (ρ : Dev nD → PrngReg)

/-- The result array: the kernel's arrangement of the launch memory's six argument arrays. -/
def result (c : Dev nD) : S4x2048x2048.Idx → EReal :=
  Lora.kernelForm (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The id table the region reads is the launch memory's id array. -/
theorem tbl_eq : tbl m 0 = m (((0 : Dev nD) : Thread nD τ).loc main_arg1) := V_main_arg1 m 0

/-- The same, word by word. -/
theorem tbl_apply (i : S4.Idx) : tbl m 0 i = m (((0 : Dev nD) : Thread nD τ).loc main_arg1) i :=
  congrFun (V_main_arg1 m 0) i

/-- x's block at point t, read at (u, s, d). -/
theorem blk0 (hO : Ok m) (c : Dev nD) (t : Fin (cfgM m hO).N) (u : Fin 1) (s : Fin 512) (d : Fin 2048) :
    iblk m hO c 0 t (ix3 u s d)
      = m ((c : Thread nD τ).loc main_arg0) (ix3 (gp t) (⟨(gq t).val * 512 + s.val, by have := (gq t).isLt; omega⟩ : Fin 2048) d) := by
  show V m c main_arg0 ((((cfgM m hO).win 0).blk t).view.emb (ix3 u s d)) = _
  rw [emb0 (adm m hO) t u s d]
  exact congrFun (V_main_arg0 m c) _

/-- W's block, read at (d, o). -/
theorem blk1 (hO : Ok m) (c : Dev nD) (t : Fin (cfgM m hO).N) (d : Fin 2048) (o : Fin 2048) :
    iblk m hO c 1 t (ix2 d o) = m ((c : Thread nD τ).loc main_arg2) (ix2 d o) := by
  show V m c main_v1 ((((cfgM m hO).win 1).blk t).view.emb (ix2 d o)) = _
  rw [emb1 (adm m hO) t d o]
  exact V_v1_apply m c _

/-- The bias row's block, read at (u, o). -/
theorem blk2 (hO : Ok m) (c : Dev nD) (t : Fin (cfgM m hO).N) (u : Fin 1) (o : Fin 2048) :
    iblk m hO c 2 t (ix2 u o) = m ((c : Thread nD τ).loc main_arg3) (ix1 o) := by
  show V m c main_v0 ((((cfgM m hO).win 2).blk t).view.emb (ix2 u o)) = _
  rw [emb2 (adm m hO) t u o]
  exact V_v0_apply m c _ _

/-- A's block at point t, read at (u, d, r): slice id_p of A. -/
theorem blk3 (hO : Ok m) (hlt : ∀ i : S4.Idx, (tbl m 0 i).toNat < 8) (c : Dev nD) (t : Fin (cfgM m hO).N)
    (u : Fin 1) (d : Fin 2048) (r : Fin 8) :
    iblk m hO c 3 t (ix3 u d r)
      = m ((c : Thread nD τ).loc main_arg4) (ix3 (⟨(tbl m 0 (ix1 (gp t))).toNat, hlt _⟩ : Fin 8) d r) := by
  show V m c main_v2 ((((cfgM m hO).win 3).blk t).view.emb (ix3 u d r)) = _
  rw [emb3 (adm m hO) t (hlt _) u d r]
  exact V_v2_apply m c _

/-- The scaled C's block at point t, read at (u, r, o): slice id_p of C, times 2. -/
theorem blk4 (hO : Ok m) (hlt : ∀ i : S4.Idx, (tbl m 0 i).toNat < 8) (c : Dev nD) (t : Fin (cfgM m hO).N)
    (u : Fin 1) (r : Fin 8) (o : Fin 2048) :
    iblk m hO c 4 t (ix3 u r o)
      = argC m c (ix3 (⟨(tbl m 0 (ix1 (gp t))).toNat, hlt _⟩ : Fin 8) r o) * Lora.two := by
  show V m c main_v5 ((((cfgM m hO).win 4).blk t).view.emb (ix3 u r o)) = _
  rw [emb4 (adm m hO) t (hlt _) u r o]
  exact V_v5_apply m c _

/-- The result at explicit coordinates. -/
theorem result_ix3 (c : Dev nD) (p : Fin 4) (s o : Fin 2048) :
    result m c (ix3 p s o)
      = Lora.kernelAt (m ((c : Thread nD τ).loc main_arg0)) (m ((c : Thread nD τ).loc main_arg2))
          (m ((c : Thread nD τ).loc main_arg3)) (m ((c : Thread nD τ).loc main_arg4)) (m ((c : Thread nD τ).loc main_arg5))
          (Lora.sel (m ((c : Thread nD τ).loc main_arg1)) p) p s o := rfl

/-- WHAT POINT t WRITES BACK is block t of the result array. -/
theorem flushed_eq (hO : Ok m) (hids : ∀ i : S4.Idx, (m (((0 : Dev nD) : Thread nD τ).loc main_arg1) i).toNat < 8)
    (c : Dev nD) (t : Fin (cfgM m hO).N) :
    (dats m hO 0 c).flushed 5 t = (((cfgM m hO).win 5).blk t).view.read (Elt Ideal) (result m c) := by
  obtain rfl : c = 0 := Subsingleton.elim _ _
  have hlt : ∀ i : S4.Idx, (tbl m 0 i).toNat < 8 := fun i => by rw [tbl_apply]; exact hids i
  have hout : outsAt0 m hO 0 t
      = k0_pay1 (iblk m hO 0 0 t) (iblk m hO 0 1 t) (iblk m hO 0 3 t) (iblk m hO 0 4 t) (iblk m hO 0 2 t) :=
    Out.out_eq 0 (grid0.coords t) (ms0_0 m hO t) (hs0_0 m hO t) (ms0_1 m hO t) (hs0_1 m hO t) (ms0_2 m hO t)
      (hs0_2 m hO t) (ms0_3 m hO t) (hs0_3 m hO t) (ms0_4 m hO t) (hs0_4 m hO t) (ms0_5 m hO t) (hs0_5 m hO t)
      (iblk m hO 0 0 t) (iblk m hO 0 1 t) (iblk m hO 0 2 t) (iblk m hO 0 3 t) (iblk m hO 0 4 t) (tbl m 0)
  show ((cfgM m hO).win 5).cut (grid0.coords t) ((dats m hO 0 0).after 5 t) = _
  rw [after0_5, hout]
  refine funext fun (y : S1x512x2048.Idx) => ?_
  obtain ⟨u, s, o, rfl⟩ : ∃ (u : Fin 1) (s : Fin 512) (o : Fin 2048), y = ix3 u s o := ⟨y 0, y 1, y 2, eq_ix3 y⟩
  show k0_pay1 (iblk m hO 0 0 t) (iblk m hO 0 1 t) (iblk m hO 0 3 t) (iblk m hO 0 4 t) (iblk m hO 0 2 t) (ix3 u s o)
     = result m 0 ((((cfgM m hO).win 5).blk t).view.emb (ix3 u s o))
  rw [emb5 (adm m hO) t u s o, result_ix3]
  refine (Pay.pay_apply (iblk m hO 0 0 t) (iblk m hO 0 1 t) (iblk m hO 0 3 t) (iblk m hO 0 4 t) (iblk m hO 0 2 t) u s o).trans ?_
  have he : Lora.sel (m (((0 : Dev nD) : Thread nD τ).loc main_arg1)) (gp t)
      = (⟨(tbl m 0 (ix1 (gp t))).toNat, hlt _⟩ : Fin 8) :=
    Fin.ext ((Lora.sel_val _ _ (hids _)).trans (congrArg BitVec.toNat (tbl_apply m _).symm))
  rw [he]
  unfold Pay.blockAt Lora.kernelAt Lora.base Lora.low
  refine congrArg₂ (· + ·) (congrArg₂ (· + ·) ?_ ?_) ?_
  · exact Finset.sum_congr rfl fun d _ => congrArg₂ (· * ·) (blk0 m hO 0 t 0 s d) (blk1 m hO 0 t d o)
  · exact Finset.sum_congr rfl fun r _ => congrArg₂ (· * ·)
      (Finset.sum_congr rfl fun d _ => congrArg₂ (· * ·) (blk0 m hO 0 t 0 s d) (blk3 m hO hlt 0 t 0 d r))
      (blk4 m hO hlt 0 t 0 r o)
  · exact blk2 m hO 0 t 0 o

/-- Every (sample, sequence tile) is some grid point's. -/
theorem onto5 : ∀ (p q : Fin 4), ∃ t : Fin grid0.N, gp t = p ∧ gq t = q := by decide +kernel

/-- The sixteen blocks cover the result array: index (p, r, o) is element (0, r mod 512, o) of the block of point
    (p, r / 512). -/
theorem cover (hO : Ok m) (i : S4x2048x2048.Idx) :
    ∃ t : Fin (cfgM m hO).N, ((cfgM m hO).win 5).flush t = true ∧ i ∈ (((cfgM m hO).win 5).blk t).view.set := by
  have h0 : (i 0).val < 4 := (i 0).isLt
  have h1 : (i 1).val < 2048 := (i 1).isLt
  have h2 : (i 2).val < 2048 := (i 2).isLt
  obtain ⟨t, hp, hq⟩ := onto5 ⟨(i 0).val, h0⟩ ⟨(i 1).val / 512, by omega⟩
  have hpv : (gp t).val = (i 0).val := congrArg Fin.val hp
  have hqv : (gq t).val = (i 1).val / 512 := congrArg Fin.val hq
  refine ⟨t, flush0_5 (adm m hO) t, ?_⟩
  have hi : i = (((cfgM m hO).win 5).blk t).view.emb
      (ix3 (0 : Fin 1) (⟨(i 1).val % 512, Nat.mod_lt _ (by decide)⟩ : Fin 512) (⟨(i 2).val, h2⟩ : Fin 2048)) := by
    rw [emb5 (adm m hO) t]
    funext ax; apply Fin.ext
    match ax with
    | ⟨0, _⟩ => show (i 0).val = (gp t).val; omega
    | ⟨1, _⟩ => show (i 1).val = (gq t).val * 512 + (i 1).val % 512; omega
    | ⟨2, _⟩ => rfl
  exact hi ▸ View.emb_mem_set _ _

/-- So the result array ends holding the kernel's arrangement of the argument arrays. -/
theorem final (hO : Ok m) (hids : ∀ i : S4.Idx, (m (((0 : Dev nD) : Thread nD τ).loc main_arg1) i).toNat < 8) (c : Dev nD) :
    (dats m hO 0 c).arrAt 5 (cfgM m hO).N = result m c :=
  (dats m hO 0 c).arrAt_eq_of_cover 5 (result m c) (fun t _ => flushed_eq m hO hids c t) (cover m hO)

/-- The frame run re-posted: the result array named, the arguments unchanged. -/
theorem run (hO : Ok m) (hids : ∀ i : S4.Idx, (m (((0 : Dev nD) : Thread nD τ).loc main_arg1) i).toNat < 8) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final m hO hids c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Value

end
-- ==== Proof.RefTerm.lean ====
/-
  The reference program's result as one pure term of its argument arrays: its host operations composed in
  program order.  The adapter ids are first wrapped (a negative id is moved up by 8), then tested for the range
  [0, 7]; a sample whose wrapped id is out of range takes a not-a-number fill instead of the gathered adapter
  slices.  The result is (x · W + b) + ((x · A') · C') · 2 with A', C' the per-sample gathered slices.
-/
import proofs.«177709_g16707422781875_cont_week2b_1000_6_alg».proof.ReferenceIdeal
import proofs.«177709_g16707422781875_cont_week2b_1000_6_alg».proof.Proof.Gen.ReferenceIdeal
import Idealize.ShloMosaic.PureOps.Ideal

noncomputable section

namespace Cert.ReferenceIdeal.RefTerm

open Idealize.ShloMosaic Cert.ReferenceIdeal Cert.ReferenceIdeal.Facts₀

/-- The ids with the negative ones moved up by 8. -/
def wrapIds (ids : IVec S4 32) : IVec S4 32 :=
  select (cmpi .slt ids (broadcastInDim S4 ![] bcast_S_S4 (constantI S_ 32 0#32)))
    (addi ids (broadcastInDim S4 ![] bcast_S_S4 (constantI S_ 32 8#32))) ids

/-- The wrapped ids as the gather's column of start indices. -/
def startIdx (ids : IVec S4 32) : IVec S4x1 32 := broadcastInDim S4x1 ![0] bcast_S4_S4x1_0 (wrapIds ids)

/-- Per sample: is the wrapped id in [0, 7]? -/
def inRange (ids : IVec S4 32) : IVec S4 1 :=
  Host.reduce IntOp.andi
    (andi (cmpi .sge (startIdx ids) (broadcastInDim S4x1 ![] bcast_S_S4x1 (constantI S_ 32 0#32)))
      (cmpi .sle (startIdx ids)
        (broadcastInDim S4x1 ![0, 1] bcast_S1x1_S4x1_0_1 (broadcastInDim S1x1 ![1] bcast_S1_S1x1_1 (constantI S1 32 7#32)))))
    (constantI S_ 1 1#1) reducesTo_S4x1_S4_d1 h_S_

/-- The per-sample slices of A: gathered where the id is in range, the fill elsewhere. -/
def takeA (A : FVec Ideal S8x2048x8 .f32) (ids : IVec S4 32) : FVec Ideal S4x2048x8 .f32 :=
  select (broadcastInDim S4x2048x8 ![0] bcast_S4_S4x2048x8_0 (inRange ids))
    (Host.gather gather_S8x2048x8_S4x1_S4x2048x8_12_0_n_n_0_1_120488 A (startIdx ids))
    (broadcastInDim S4x2048x8 ![] bcast_S_S4x2048x8 (constant (F := Ideal) S_ .f32 0x7FC00000#32))

/-- The per-sample slices of C: gathered where the id is in range, the fill elsewhere. -/
def takeC (C : FVec Ideal S8x8x2048 .f32) (ids : IVec S4 32) : FVec Ideal S4x8x2048 .f32 :=
  select (broadcastInDim S4x8x2048 ![0] bcast_S4_S4x8x2048_0 (inRange ids))
    (Host.gather gather_S8x8x2048_S4x1_S4x8x2048_12_0_n_n_0_1_182048 C (startIdx ids))
    (broadcastInDim S4x8x2048 ![] bcast_S_S4x8x2048 (constant (F := Ideal) S_ .f32 0x7FC00000#32))

/-- The reference's result. -/
def refTerm (x : FVec Ideal S4x2048x2048 .f32) (ids : IVec S4 32) (W : FVec Ideal S2048x2048 .f32)
    (b : FVec Ideal S2048 .f32) (A : FVec Ideal S8x2048x8 .f32) (C : FVec Ideal S8x8x2048 .f32) :
    FVec Ideal S4x2048x2048 .f32 :=
  addf
    (addf (Host.dotGeneral dot_S4x2048x2048_S2048x2048_S4x2048x2048_2_0_01_1_n_n none x W)
      (broadcastInDim S4x2048x2048 ![0, 1, 2] bcast_S1x1x2048_S4x2048x2048_0_1_2
        (broadcastInDim S1x1x2048 ![2] bcast_S2048_S1x1x2048_2 b)))
    (mulf
      (Host.dotGeneral dot_S4x2048x8_S4x8x2048_S4x2048x2048_2_1_1_2_0_0 none
        (Host.dotGeneral dot_S4x2048x2048_S4x2048x8_S4x2048x8_2_1_1_2_0_0 none x (takeA A ids)) (takeC C ids))
      (broadcastInDim S4x2048x2048 ![] bcast_S_S4x2048x2048 (constant (F := Ideal) S_ .f32 0x40000000#32)))

end Cert.ReferenceIdeal.RefTerm

end
-- ==== Proof.RefRun.lean ====
/-
  The reference program's run.  Its entry function is a straight line of host operations once each call of a
  module-local function is replaced by the callee's body over that call's own buffers: four operations (x · W, the
  bias broadcast in two steps, their sum), then the twenty-three operations of the first gather function (the ids
  wrapped: compare with zero, add eight, select; the wrapped ids as a column; the range test 0 ≤ id ≤ 7 reduced by
  "and" along the unit axis; the gather of the slices of A; the not-a-number fill; the select between them), the same
  twenty-three for C, and six more (x · A', (x · A') · C', the constant two broadcast, the product, the final sum):
  fifty-six operations, each writing a buffer of its own.  Every weakly fair execution of such a line terminates with
  each buffer at the fold of the operations' results over the launch contents; read at the result buffer that fold is
  the composed pure term of the six argument arrays, and at an argument buffer — which no operation writes — it is the
  launch contents.
-/
import proofs.«177709_g16707422781875_cont_week2b_1000_6_alg».proof.ReferenceIdeal
import proofs.«177709_g16707422781875_cont_week2b_1000_6_alg».proof.Proof.Gen.ReferenceIdeal
import proofs.«177709_g16707422781875_cont_week2b_1000_6_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The entry function's fifty-six operations, in order, each call's operations written over that call's buffers. -/
abbrev ops : List (HloOp τ sig (Elt F)) :=
  [ binary main_arg0 main_arg2 main_v0 ((fun l r => Host.dotGeneral dot_S4x2048x2048_S2048x2048_S4x2048x2048_2_0_01_1_n_n none l r) : (⟨S4x2048x2048, .f32⟩ : BufTy).Contents (Elt F) → (⟨S2048x2048, .f32⟩ : BufTy).Contents (Elt F) → (⟨S4x2048x2048, .f32⟩ : BufTy).Contents (Elt F)),
    unary main_arg3 main_v1 (broadcastInDim S1x1x2048 ![2] bcast_S2048_S1x1x2048_2 : (⟨S2048, .f32⟩ : BufTy).Contents (Elt F) → (⟨S1x1x2048, .f32⟩ : BufTy).Contents (Elt F)),
    unary main_v1 main_v2 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v0 main_v2 main_v3 (addf : (⟨S4x2048x2048, .f32⟩ : BufTy).Contents (Elt F) → (⟨S4x2048x2048, .f32⟩ : BufTy).Contents (Elt F) → (⟨S4x2048x2048, .f32⟩ : BufTy).Contents (Elt F)),
    TRef.nullary main_call0.c (constantI S_ 32 0#32),
    TRef.unary main_call0.c main_call0.v0 (broadcastInDim S4 ![] bcast_S_S4),
    TRef.binary (.of main_arg1) main_call0.v0 main_call0.v1 (cmpi .slt),
    TRef.nullary main_call0.c_0 (constantI S_ 32 8#32),
    TRef.unary main_call0.c_0 main_call0.v2 (broadcastInDim S4 ![] bcast_S_S4),
    TRef.binary (.of main_arg1) main_call0.v2 main_call0.v3 addi,
    TRef.ternary main_call0.v1 main_call0.v3 (.of main_arg1) main_call0.call0.v0 select,
    TRef.unary main_call0.call0.v0 main_call0.v5 (broadcastInDim S4x1 ![0] bcast_S4_S4x1_0),
    TRef.nullary main_call0.c_1 (constantI S1 32 7#32),
    TRef.nullary main_call0.c_2 (constantI S_ 32 0#32),
    TRef.unary main_call0.c_2 main_call0.v6 (broadcastInDim S4x1 ![] bcast_S_S4x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4x1 ![0, 1] bcast_S1x1_S4x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x1_S4_d1 h_S_),
    TRef.binary (.of main_arg4) main_call0.v5 main_call0.v13 (fun x i => Host.gather gather_S8x2048x8_S4x1_S4x2048x8_12_0_n_n_0_1_120488 x i),
    TRef.unary main_call0.v12 main_call0.v14 (broadcastInDim S4x2048x8 ![0] bcast_S4_S4x2048x8_0),
    TRef.nullary main_call0.cst (constant S_ .f32 0x7FC00000#32),
    TRef.unary main_call0.cst main_call0.v15 (broadcastInDim S4x2048x8 ![] bcast_S_S4x2048x8),
    TRef.ternary main_call0.v14 main_call0.v13 main_call0.v15 main_call0.v16 select,
    TRef.nullary main_call1.c (constantI S_ 32 0#32),
    TRef.unary main_call1.c main_call1.v0 (broadcastInDim S4 ![] bcast_S_S4),
    TRef.binary (.of main_arg1) main_call1.v0 main_call1.v1 (cmpi .slt),
    TRef.nullary main_call1.c_0 (constantI S_ 32 8#32),
    TRef.unary main_call1.c_0 main_call1.v2 (broadcastInDim S4 ![] bcast_S_S4),
    TRef.binary (.of main_arg1) main_call1.v2 main_call1.v3 addi,
    TRef.ternary main_call1.v1 main_call1.v3 (.of main_arg1) main_call1.call0.v0 select,
    TRef.unary main_call1.call0.v0 main_call1.v5 (broadcastInDim S4x1 ![0] bcast_S4_S4x1_0),
    TRef.nullary main_call1.c_1 (constantI S1 32 7#32),
    TRef.nullary main_call1.c_2 (constantI S_ 32 0#32),
    TRef.unary main_call1.c_2 main_call1.v6 (broadcastInDim S4x1 ![] bcast_S_S4x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4x1 ![0, 1] bcast_S1x1_S4x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1_S4_d1 h_S_),
    TRef.binary (.of main_arg5) main_call1.v5 main_call1.v13 (fun x i => Host.gather gather_S8x8x2048_S4x1_S4x8x2048_12_0_n_n_0_1_182048 x i),
    TRef.unary main_call1.v12 main_call1.v14 (broadcastInDim S4x8x2048 ![0] bcast_S4_S4x8x2048_0),
    TRef.nullary main_call1.cst (constant S_ .f32 0x7FC00000#32),
    TRef.unary main_call1.cst main_call1.v15 (broadcastInDim S4x8x2048 ![] bcast_S_S4x8x2048),
    TRef.ternary main_call1.v14 main_call1.v13 main_call1.v15 main_call1.v16 select,
    binary main_arg0 main_v4 main_v6 ((fun l r => Host.dotGeneral dot_S4x2048x2048_S4x2048x8_S4x2048x8_2_1_1_2_0_0 none l r) : (⟨S4x2048x2048, .f32⟩ : BufTy).Contents (Elt F) → (⟨S4x2048x8, .f32⟩ : BufTy).Contents (Elt F) → (⟨S4x2048x8, .f32⟩ : BufTy).Contents (Elt F)),
    binary main_v6 main_v5 main_v7 ((fun l r => Host.dotGeneral dot_S4x2048x8_S4x8x2048_S4x2048x2048_2_1_1_2_0_0 none l r) : (⟨S4x2048x8, .f32⟩ : BufTy).Contents (Elt F) → (⟨S4x8x2048, .f32⟩ : BufTy).Contents (Elt F) → (⟨S4x2048x2048, .f32⟩ : BufTy).Contents (Elt F)),
    nullary main_cst (constant S_ .f32 0x40000000#32),
    unary main_cst main_v8 (broadcastInDim S4x2048x2048 ![] bcast_S_S4x2048x2048 : (⟨S_, .f32⟩ : BufTy).Contents (Elt F) → (⟨S4x2048x2048, .f32⟩ : BufTy).Contents (Elt F)),
    binary main_v7 main_v8 main_v9 (mulf : (⟨S4x2048x2048, .f32⟩ : BufTy).Contents (Elt F) → (⟨S4x2048x2048, .f32⟩ : BufTy).Contents (Elt F) → (⟨S4x2048x2048, .f32⟩ : BufTy).Contents (Elt F)),
    binary main_v3 main_v9 main_v10 (addf : (⟨S4x2048x2048, .f32⟩ : BufTy).Contents (Elt F) → (⟨S4x2048x2048, .f32⟩ : BufTy).Contents (Elt F) → (⟨S4x2048x2048, .f32⟩ : BufTy).Contents (Elt F)) ]

-- fifty-six sequenced steps re-associated: the rewriting under the chain recurses once per step
set_option maxRecDepth 2048 in
/-- The entry function is that straight line: the module-local functions' bodies substituted at their calls, and
    sequencing re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., unary_bufs_sub .., binary_bufs_sub .., binary_bufs_sub ..⟩

attribute [local irreducible] Host.reduce Host.gather in
set_option maxRecDepth 8192 in
set_option maxHeartbeats 2000000 in
/-- The fold read at the result buffer: the composed term of the six argument arrays. -/
theorem res_eq (V : Valuation τ sig (Elt Ideal)) :
    after ops V (main_v10 : DevRef τ sig)
      = Cert.ReferenceIdeal.RefTerm.refTerm (V (main_arg0 : DevRef τ sig)) (V (main_arg1 : DevRef τ sig))
          (V (main_arg2 : DevRef τ sig)) (V (main_arg3 : DevRef τ sig)) (V (main_arg4 : DevRef τ sig))
          (V (main_arg5 : DevRef τ sig)) := by
  after_results_simp
  rfl

/-! No operation writes an argument buffer: the fold read there is the launch contents. -/

set_option maxRecDepth 8192 in
set_option maxHeartbeats 2000000 in
theorem arg0_eq (V : Valuation τ sig (Elt F)) : after ops V (main_arg0 : DevRef τ sig) = V (main_arg0 : DevRef τ sig) := by
  after_results_simp

set_option maxRecDepth 8192 in
set_option maxHeartbeats 2000000 in
theorem arg1_eq (V : Valuation τ sig (Elt F)) : after ops V (main_arg1 : DevRef τ sig) = V (main_arg1 : DevRef τ sig) := by
  after_results_simp

set_option maxRecDepth 8192 in
set_option maxHeartbeats 2000000 in
theorem arg2_eq (V : Valuation τ sig (Elt F)) : after ops V (main_arg2 : DevRef τ sig) = V (main_arg2 : DevRef τ sig) := by
  after_results_simp

set_option maxRecDepth 8192 in
set_option maxHeartbeats 2000000 in
theorem arg3_eq (V : Valuation τ sig (Elt F)) : after ops V (main_arg3 : DevRef τ sig) = V (main_arg3 : DevRef τ sig) := by
  after_results_simp

set_option maxRecDepth 8192 in
set_option maxHeartbeats 2000000 in
theorem arg4_eq (V : Valuation τ sig (Elt F)) : after ops V (main_arg4 : DevRef τ sig) = V (main_arg4 : DevRef τ sig) := by
  after_results_simp

set_option maxRecDepth 8192 in
set_option maxHeartbeats 2000000 in
theorem arg5_eq (V : Valuation τ sig (Elt F)) : after ops V (main_arg5 : DevRef τ sig) = V (main_arg5 : DevRef τ sig) := by
  after_results_simp

set_option maxRecDepth 8192 in
set_option maxHeartbeats 2000000 in
/-- From any memory with zero counters, every weakly fair execution of the entry function terminates with the result
    buffer at the composed term of the six argument arrays' launch contents, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
        = Cert.ReferenceIdeal.RefTerm.refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v10).trans (res_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValueTake.lean ====
/-
  The reference's per-sample slices read at an index, for adapter ids in range.

  An id word below 8 (read unsigned) is not negative read signed, so the wrap leaves it as it is; it passes the
  range test 0 ≤ id ≤ 7, so the and-reduction over the unit axis of the test's column is 1 for every sample
  and the select takes the gathered slice, never the fill.  The gather reads, for sample p, the slice of the
  operand at the start index (the id read signed, clamped into [0, 7]: the id itself), with the two offset
  coordinates carried over unchanged.
-/
import proofs.«177709_g16707422781875_cont_week2b_1000_6_alg».proof.Proof.Spec
import proofs.«177709_g16707422781875_cont_week2b_1000_6_alg».proof.Proof.RefTerm
import Idealize.ShloMosaic.Lib.ValueIdx
import Idealize.ShloMosaic.Lib.Pipeline.Value
import Idealize.ShloMosaic.Lib.ReduceAll

noncomputable section

namespace Cert.ReferenceIdeal.RefValue

open Idealize.ShloMosaic Idealize.ShloMosaic.ValueIdx Cert.ReferenceIdeal Cert.ReferenceIdeal.Facts₀
open Cert.ReferenceIdeal.RefTerm

/-! ## Words -/

/-- A word below 8 read unsigned is its own signed reading. -/
theorem toInt_of_lt (w : BitVec 32) (h : w.toNat < 8) : w.toInt = (w.toNat : ℤ) :=
  BitVec.toInt_eq_toNat_of_lt (by omega)

/-- A word below 8 read unsigned is not negative read signed. -/
theorem slt_zero_of_lt (w : BitVec 32) (h : w.toNat < 8) : IntOp.cmpi .slt w 0#32 = 0#1 := by
  refine eq_zero_of_ne_one fun h1 => ?_
  rw [IntOp.cmpi_slt, toInt_of_lt w h, show (0#32 : BitVec 32).toInt = 0 from by decide] at h1
  omega

/-- It is at least 0 read signed … -/
theorem sge_zero_of_lt (w : BitVec 32) (h : w.toNat < 8) : IntOp.cmpi .sge w 0#32 = 1#1 := by
  rw [IntOp.cmpi_sge, toInt_of_lt w h, show (0#32 : BitVec 32).toInt = 0 from by decide]
  omega

/-- … and at most 7. -/
theorem sle_seven_of_lt (w : BitVec 32) (h : w.toNat < 8) : IntOp.cmpi .sle w 7#32 = 1#1 := by
  rw [IntOp.cmpi_sle, toInt_of_lt w h, show (7#32 : BitVec 32).toInt = 7 from by decide]
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-! ## The ids -/

/-- An id in range is not moved by the wrap. -/
theorem wrapIds_apply (ids : IVec S4 32) (p : Fin 4) (h : (ids (ix1 p)).toNat < 8) :
    wrapIds ids (ix1 p) = ids (ix1 p) := by
  show Scalar.select (IntOp.cmpi .slt (ids (ix1 p)) 0#32) _ _ = _
  rw [slt_zero_of_lt _ h, select_zero]

/-- The column of start indices at (p, 0) is sample p's wrapped id. -/
theorem startIdx_apply (ids : IVec S4 32) (p : Fin 4) (q : Fin 1) :
    startIdx ids (ix2 p q) = wrapIds ids (ix1 p) := by
  unfold startIdx
  refine broadcastInDim_apply _ _ _ (ix2 p q) (ix1 p) fun a => ?_
  match a with
  | ⟨0, _⟩ => rfl

/-- With every id in range the range test passes for every sample. -/
theorem inRange_apply (ids : IVec S4 32) (hids : ∀ i : S4.Idx, (ids i).toNat < 8) (j : S4.Idx) :
    inRange ids j = 1#1 := by
  unfold inRange
  rw [Host.reduce_eq_foldl]
  refine foldl_andi_one _ _ fun i _ => ?_
  obtain ⟨p, q, rfl⟩ : ∃ (p : Fin 4) (q : Fin 1), i = ix2 p q := ⟨i 0, i 1, eq_ix2 i⟩
  show IntOp.andi (IntOp.cmpi .sge (startIdx ids (ix2 p q)) 0#32) (IntOp.cmpi .sle (startIdx ids (ix2 p q)) 7#32) = 1#1
  rw [startIdx_apply, wrapIds_apply _ _ (hids _), sge_zero_of_lt _ (hids _), sle_seven_of_lt _ (hids _)]
  decide

/-! ## The gather of one slice per sample -/

section Gather
variable {α : Type}

/-- The dimension numbers of a gather that takes, per row of a column of start indices, one slice along the
    leading axis of a rank-3 operand and keeps the two other axes whole. -/
abbrev rowDims (N D E R : Nat)
    (wf : GatherDims.WF ⟨3, ![N, D, E]⟩ ⟨2, ![R, 1]⟩ ⟨3, ![R, D, E]⟩ [1, 2] [0] [] [0] [] 1 ![1, D, E]) :
    GatherDims ⟨3, ![N, D, E]⟩ ⟨2, ![R, 1]⟩ ⟨3, ![R, D, E]⟩ where
  offsetDims := [1, 2]
  collapsedSliceDims := [0]
  operandBatchingDims := []
  startIndicesBatchingDims := []
  startIndexMap := [0]
  indexVectorDim := 1
  sliceSizes := ![1, D, E]
  wf := wf

/-- That gather read at (p, d, e): the operand at (start, d, e), the start being row p's start index read
    signed and clamped into [0, N − 1]. -/
theorem gather_row_apply {N D E R w : Nat} (hN : 0 < N)
    (wf : GatherDims.WF ⟨3, ![N, D, E]⟩ ⟨2, ![R, 1]⟩ ⟨3, ![R, D, E]⟩ [1, 2] [0] [] [0] [] 1 ![1, D, E])
    (x : (⟨3, ![N, D, E]⟩ : Shape).Idx → α) (idx : IVec ⟨2, ![R, 1]⟩ w) (p : Fin R) (d : Fin D) (e : Fin E) :
    Host.gather (rowDims N D E R wf) x idx (ix3 p d e)
      = x (ix3 ⟨min (idx (ix2 p (0 : Fin 1))).toInt.toNat (N - 1), by omega⟩ d e) := by
  unfold Host.gather
  congr 1
  funext a
  refine Fin.ext ?_
  show (rowDims N D E R wf).start (ix3 p d e) idx a + (rowDims N D E R wf).batchCoord (ix3 p d e) a
      + (rowDims N D E R wf).offCoord (ix3 p d e) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    have hm : Fin.mk 0 h0 ∈ (rowDims N D E R wf).startIndexMap := List.mem_singleton.mpr rfl
    rw [dif_pos hm]
    have hsi : (rowDims N D E R wf).siIdx (ix3 p d e) ⟨List.idxOf (Fin.mk 0 h0) (rowDims N D E R wf).startIndexMap,
        List.idxOf_lt_length_iff.2 hm⟩ = ix2 p (0 : Fin 1) := by
      funext b; refine Fin.ext ?_
      match b with
      | ⟨0, _⟩ => rfl
      | ⟨1, _⟩ => rfl
    rw [hsi]
    rfl
  | ⟨1, h1⟩ =>
    have hn : ¬ Fin.mk 1 h1 ∈ (rowDims N D E R wf).startIndexMap :=
      fun h => absurd (congrArg Fin.val (List.mem_singleton.mp h)) (show ¬ (1 : ℕ) = 0 from by decide)
    unfold GatherDims.start
    rw [dif_neg hn, Nat.zero_add]
    rfl
  | ⟨2, h2⟩ =>
    have hn : ¬ Fin.mk 2 h2 ∈ (rowDims N D E R wf).startIndexMap :=
      fun h => absurd (congrArg Fin.val (List.mem_singleton.mp h)) (show ¬ (2 : ℕ) = 0 from by decide)
    unfold GatherDims.start
    rw [dif_neg hn, Nat.zero_add]
    rfl

end Gather

/-! ## The per-sample slices -/

/-- The clamp of an id in range is the id: the start of sample p's slice is the adapter its id selects. -/
theorem start_eq_sel (ids : IVec S4 32) (hids : ∀ i : S4.Idx, (ids i).toNat < 8) (p : Fin 4) :
    min (startIdx ids (ix2 p (0 : Fin 1))).toInt.toNat (8 - 1) = (Lora.sel ids p).val := by
  rw [startIdx_apply, wrapIds_apply _ _ (hids _), toInt_of_lt _ (hids _), Int.toNat_natCast, Lora.sel_val _ _ (hids _)]
  have := hids (ix1 p)
  omega

/-- Sample p's slice of A is the adapter's its id selects. -/
theorem takeA_apply (A : FVec Ideal S8x2048x8 .f32) (ids : IVec S4 32) (hids : ∀ i : S4.Idx, (ids i).toNat < 8)
    (p : Fin 4) (d : Fin 2048) (r : Fin 8) : takeA A ids (ix3 p d r) = A (ix3 (Lora.sel ids p) d r) := by
  show Scalar.select (inRange ids _) (Host.gather _ A (startIdx ids) (ix3 p d r)) _ = _
  rw [inRange_apply ids hids, select_one]
  refine (gather_row_apply (by decide) gather_S8x2048x8_S4x1_S4x2048x8_12_0_n_n_0_1_120488_wf A (startIdx ids) p d r).trans ?_
  exact congrArg A (congrArg (fun e => ix3 e d r) (Fin.ext (start_eq_sel ids hids p)))

/-- Sample p's slice of C is the adapter's its id selects. -/
theorem takeC_apply (C : FVec Ideal S8x8x2048 .f32) (ids : IVec S4 32) (hids : ∀ i : S4.Idx, (ids i).toNat < 8)
    (p : Fin 4) (r : Fin 8) (o : Fin 2048) : takeC C ids (ix3 p r o) = C (ix3 (Lora.sel ids p) r o) := by
  show Scalar.select (inRange ids _) (Host.gather _ C (startIdx ids) (ix3 p r o)) _ = _
  rw [inRange_apply ids hids, select_one]
  refine (gather_row_apply (by decide) gather_S8x8x2048_S4x1_S4x8x2048_12_0_n_n_0_1_182048_wf C (startIdx ids) p r o).trans ?_
  exact congrArg C (congrArg (fun e => ix3 e r o) (Fin.ext (start_eq_sel ids hids p)))

end Cert.ReferenceIdeal.RefValue

end
-- ==== Proof.RefValueDots.lean ====
/-
  The reference's three products read at an index.

  Each is a sum over its one contracted axis of the products of the operands' entries: the left operand read at
  (the result's batch and row coordinates, the contracted coordinate), the right operand at (the contracted
  coordinate, the result's column coordinate), with the batch coordinate in front where the product has one.
  The contraction's one-axis index set is re-indexed by its coordinate.
-/
import proofs.«177709_g16707422781875_cont_week2b_1000_6_alg».proof.Proof.RefTerm
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

/-- x · W at (p, s, o): no batch axis, the last axis of x against the first of W. -/
theorem dot_xW_apply (x : FVec Ideal S4x2048x2048 .f32) (W : FVec Ideal S2048x2048 .f32) (p : Fin 4) (s o : Fin 2048) :
    Host.dotGeneral dot_S4x2048x2048_S2048x2048_S4x2048x2048_2_0_01_1_n_n none x W (ix3 p s o)
      = ∑ d : Fin 2048, x (ix3 p s d) * W (ix2 d o) := by
  simp only [Host.dotGeneral]
  rw [Ideal.dotGeneral_apply,
    ← Equiv.sum_comp (contrEquiv1 dot_S4x2048x2048_S2048x2048_S4x2048x2048_2_0_01_1_n_n 2048 rfl rfl).symm]
  refine Finset.sum_congr rfl fun l _ => ?_
  have hk := contrEquiv1_symm_val dot_S4x2048x2048_S2048x2048_S4x2048x2048_2_0_01_1_n_n 2048 rfl rfl l
  have el : dot_S4x2048x2048_S2048x2048_S4x2048x2048_2_0_01_1_n_n.lhsIdx (ix3 p s o)
      ((contrEquiv1 dot_S4x2048x2048_S2048x2048_S4x2048x2048_2_0_01_1_n_n 2048 rfl rfl).symm l) = ix3 p s l :=
    funext fun a => Fin.ext (by
      match a with
      | ⟨0, _⟩ => rfl
      | ⟨1, _⟩ => rfl
      | ⟨2, _⟩ => exact hk)
  have er : dot_S4x2048x2048_S2048x2048_S4x2048x2048_2_0_01_1_n_n.rhsIdx (ix3 p s o)
      ((contrEquiv1 dot_S4x2048x2048_S2048x2048_S4x2048x2048_2_0_01_1_n_n 2048 rfl rfl).symm l) = ix2 l o :=
    funext fun a => Fin.ext (by
      match a with
      | ⟨0, _⟩ => exact hk
      | ⟨1, _⟩ => rfl)
  rw [el, er]

/-- x · A' at (p, s, r), batched over the sample: the last axis of x against the middle axis of A'. -/
theorem dot_xA_apply (x : FVec Ideal S4x2048x2048 .f32) (A' : FVec Ideal S4x2048x8 .f32) (p : Fin 4) (s : Fin 2048)
    (r : Fin 8) :
    Host.dotGeneral dot_S4x2048x2048_S4x2048x8_S4x2048x8_2_1_1_2_0_0 none x A' (ix3 p s r)
      = ∑ d : Fin 2048, x (ix3 p s d) * A' (ix3 p d r) := by
  simp only [Host.dotGeneral]
  rw [Ideal.dotGeneral_apply,
    ← Equiv.sum_comp (contrEquiv1 dot_S4x2048x2048_S4x2048x8_S4x2048x8_2_1_1_2_0_0 2048 rfl rfl).symm]
  refine Finset.sum_congr rfl fun l _ => ?_
  have hk := contrEquiv1_symm_val dot_S4x2048x2048_S4x2048x8_S4x2048x8_2_1_1_2_0_0 2048 rfl rfl l
  have el : dot_S4x2048x2048_S4x2048x8_S4x2048x8_2_1_1_2_0_0.lhsIdx (ix3 p s r)
      ((contrEquiv1 dot_S4x2048x2048_S4x2048x8_S4x2048x8_2_1_1_2_0_0 2048 rfl rfl).symm l) = ix3 p s l :=
    funext fun a => Fin.ext (by
      match a with
      | ⟨0, _⟩ => rfl
      | ⟨1, _⟩ => rfl
      | ⟨2, _⟩ => exact hk)
  have er : dot_S4x2048x2048_S4x2048x8_S4x2048x8_2_1_1_2_0_0.rhsIdx (ix3 p s r)
      ((contrEquiv1 dot_S4x2048x2048_S4x2048x8_S4x2048x8_2_1_1_2_0_0 2048 rfl rfl).symm l) = ix3 p l r :=
    funext fun a => Fin.ext (by
      match a with
      | ⟨0, _⟩ => rfl
      | ⟨1, _⟩ => exact hk
      | ⟨2, _⟩ => rfl)
  rw [el, er]

/-- L · C' at (p, s, o), batched over the sample: the last axis of L (extent 8) against the middle axis of C'. -/
theorem dot_LC_apply (Lw : FVec Ideal S4x2048x8 .f32) (C' : FVec Ideal S4x8x2048 .f32) (p : Fin 4) (s o : Fin 2048) :
    Host.dotGeneral dot_S4x2048x8_S4x8x2048_S4x2048x2048_2_1_1_2_0_0 none Lw C' (ix3 p s o)
      = ∑ r : Fin 8, Lw (ix3 p s r) * C' (ix3 p r o) := by
  simp only [Host.dotGeneral]
  rw [Ideal.dotGeneral_apply,
    ← Equiv.sum_comp (contrEquiv1 dot_S4x2048x8_S4x8x2048_S4x2048x2048_2_1_1_2_0_0 8 rfl rfl).symm]
  refine Finset.sum_congr rfl fun l _ => ?_
  have hk := contrEquiv1_symm_val dot_S4x2048x8_S4x8x2048_S4x2048x2048_2_1_1_2_0_0 8 rfl rfl l
  have el : dot_S4x2048x8_S4x8x2048_S4x2048x2048_2_1_1_2_0_0.lhsIdx (ix3 p s o)
      ((contrEquiv1 dot_S4x2048x8_S4x8x2048_S4x2048x2048_2_1_1_2_0_0 8 rfl rfl).symm l) = ix3 p s l :=
    funext fun a => Fin.ext (by
      match a with
      | ⟨0, _⟩ => rfl
      | ⟨1, _⟩ => rfl
      | ⟨2, _⟩ => exact hk)
  have er : dot_S4x2048x8_S4x8x2048_S4x2048x2048_2_1_1_2_0_0.rhsIdx (ix3 p s o)
      ((contrEquiv1 dot_S4x2048x8_S4x8x2048_S4x2048x2048_2_1_1_2_0_0 8 rfl rfl).symm l) = ix3 p l o :=
    funext fun a => Fin.ext (by
      match a with
      | ⟨0, _⟩ => rfl
      | ⟨1, _⟩ => exact hk
      | ⟨2, _⟩ => rfl)
  rw [el, er]

end Cert.ReferenceIdeal.RefValue

end
-- ==== Proof.RefValue.lean ====
/-
  The reference's composed term, read at every index, is the reference arrangement of the specification, for
  adapter ids in range.

  At (p, s, o) the term is (x · W + bias) + ((x · A') · C') · 2 with A', C' the per-sample slices.  The bias, broadcast
  over samples and positions, reads b at o; the scale, a broadcast scalar, reads the same word everywhere.  The three
  products are sums over their contracted axis; the slices read the adapter the sample's id selects.  What is left
  is the specification's expression, term for term.
-/
import proofs.«177709_g16707422781875_cont_week2b_1000_6_alg».proof.Proof.Spec
import proofs.«177709_g16707422781875_cont_week2b_1000_6_alg».proof.Proof.RefTerm
import proofs.«177709_g16707422781875_cont_week2b_1000_6_alg».proof.Proof.RefValueTake
import proofs.«177709_g16707422781875_cont_week2b_1000_6_alg».proof.Proof.RefValueDots
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Facts₀
open Cert.ReferenceIdeal.RefTerm

/-- The bias, laid along the last axis and broadcast over samples and positions, reads b at the column. -/
theorem bias_apply (b : FVec Ideal S2048 .f32) (p : Fin 4) (s o : Fin 2048) :
    broadcastInDim S4x2048x2048 ![0, 1, 2] bcast_S1x1x2048_S4x2048x2048_0_1_2
        (broadcastInDim S1x1x2048 ![2] bcast_S2048_S1x1x2048_2 b) (ix3 p s o) = b (ix1 o) := by
  refine (broadcastInDim_apply _ _ _ (ix3 p s o) (ix3 (0 : Fin 1) (0 : Fin 1) o) fun a => ?_).trans ?_
  · match a with
    | ⟨0, _⟩ => rfl
    | ⟨1, _⟩ => rfl
    | ⟨2, _⟩ => rfl
  · refine broadcastInDim_apply _ _ _ (ix3 (0 : Fin 1) (0 : Fin 1) o) (ix1 o) fun a => ?_
    match a with
    | ⟨0, _⟩ => rfl

/-- The broadcast scale reads the word of 2.0 everywhere. -/
theorem scale_apply (j : S4x2048x2048.Idx) :
    broadcastInDim S4x2048x2048 ![] bcast_S_S4x2048x2048 (constant (F := Ideal) S_ .f32 0x40000000#32) j = Lora.two := rfl

/-- x · A' at (p, s, r), with A' the per-sample slices of A, is the low-rank factor at the selected adapter. -/
theorem low_apply (x : FVec Ideal S4x2048x2048 .f32) (ids : IVec S4 32) (A : FVec Ideal S8x2048x8 .f32)
    (hids : ∀ i : S4.Idx, (ids i).toNat < 8) (p : Fin 4) (s : Fin 2048) (r : Fin 8) :
    Host.dotGeneral dot_S4x2048x2048_S4x2048x8_S4x2048x8_2_1_1_2_0_0 none x (takeA A ids) (ix3 p s r)
      = Lora.low x A (Lora.sel ids p) p s r := by
  rw [dot_xA_apply]
  unfold Lora.low
  exact Finset.sum_congr rfl fun d _ => by rw [takeA_apply A ids hids]

/-- The reference's composed term is the reference arrangement. -/
theorem refTerm_eq (x : FVec Ideal S4x2048x2048 .f32) (ids : IVec S4 32) (W : FVec Ideal S2048x2048 .f32)
    (b : FVec Ideal S2048 .f32) (A : FVec Ideal S8x2048x8 .f32) (C : FVec Ideal S8x8x2048 .f32)
    (hids : ∀ i : S4.Idx, (ids i).toNat < 8) :
    Cert.ReferenceIdeal.RefTerm.refTerm x ids W b A C = Lora.refForm x ids W b A C := by
  funext i
  obtain ⟨p, s, o, rfl⟩ : ∃ (p : Fin 4) (s o : Fin 2048), i = ix3 p s o := ⟨i 0, i 1, i 2, eq_ix3 i⟩
  show refTerm x ids W b A C (ix3 p s o) = Lora.refAt x W b A C (Lora.sel ids p) p s o
  unfold refTerm Lora.refAt
  rw [addf_apply, addf_apply, mulf_apply, dot_xW_apply, bias_apply, dot_LC_apply, scale_apply]
  refine congrArg₂ (· + ·) rfl (congrArg (· * Lora.two) (Finset.sum_congr rfl fun r _ => ?_))
  rw [low_apply x ids A hids, takeC_apply C ids hids]

end Cert.ReferenceIdeal.RefValue

end
-- ==== Proof.lean ====
/-
  A fused routed-LoRA layer against its jnp reference, on the extended reals.

  Inputs: x [4, 2048, 2048], adapter ids [4], W [2048, 2048], b [2048], A [8, 2048, 8], C [8, 8, 2048].  Both programs
  compute, for sample p with adapter e = ids[p],
      x[p] · W + b + 2 · (x[p] · A[e]) · C[e].
  The kernel walks a 4 × 4 grid (sample, tile of 512 sequence positions); at each point it multiplies the x tile by
  W, by the adapter slice A[e] and then by the slice of C · 2 (the host scales C first), adds the two products and
  the bias last, and writes one [1, 512, 2048] block of the result; the adapter slices are picked by index maps that
  read the id table, so the blocks lie inside A and C only for ids in [0, 8) — which the precondition states, beside
  the finiteness of the float inputs.  The reference gathers the adapter slices (for ids in [0, 8) the gather reads
  slice ids[p]), adds the bias to x · W first, and scales the low-rank product by 2 after its sum.

  The two arrangements are the same extended real once x, A and C are finite (the factor 2 moves out of a finite sum
  of reals; the three summands regroup by commutativity and associativity).  The kernel's frames hold under the
  side condition that the table-indexed blocks lie inside their arrays, proved from the precondition; the reference's
  frame is its run with the result dropped; the idealization rewrote nothing.
-/
import proofs.«177709_g16707422781875_cont_week2b_1000_6_alg».proof.Defs
import proofs.«177709_g16707422781875_cont_week2b_1000_6_alg».proof.Proof.Gen.Kernel
import proofs.«177709_g16707422781875_cont_week2b_1000_6_alg».proof.Proof.Gen.Kernel.Frame
import proofs.«177709_g16707422781875_cont_week2b_1000_6_alg».proof.Proof.Gen.KernelIdeal
import proofs.«177709_g16707422781875_cont_week2b_1000_6_alg».proof.Proof.Gen.KernelIdeal.Frame
import proofs.«177709_g16707422781875_cont_week2b_1000_6_alg».proof.Proof.Gen.ReferenceIdeal
import proofs.«177709_g16707422781875_cont_week2b_1000_6_alg».proof.Proof.Gen.Pre_finite_inputs
import proofs.«177709_g16707422781875_cont_week2b_1000_6_alg».proof.Proof.Spec
import proofs.«177709_g16707422781875_cont_week2b_1000_6_alg».proof.Proof.PreDecode
import proofs.«177709_g16707422781875_cont_week2b_1000_6_alg».proof.Proof.OkKernel
import proofs.«177709_g16707422781875_cont_week2b_1000_6_alg».proof.Proof.OkKernelIdeal
import proofs.«177709_g16707422781875_cont_week2b_1000_6_alg».proof.Proof.KernelValue
import proofs.«177709_g16707422781875_cont_week2b_1000_6_alg».proof.Proof.RefRun
import proofs.«177709_g16707422781875_cont_week2b_1000_6_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the table-indexed blocks lie inside A and C. -/
theorem frame_k : Cert.frame_Kernel := fun m ρ h => Cert.Kernel.Gen.frame m ρ (Cert.Kernel.OkOfPre.ok_of_pre m h)

/-- The same for the idealized kernel. -/
theorem frame_ki : Cert.frame_KernelIdeal := fun m ρ h =>
  Cert.KernelIdeal.Gen.frame m ρ (Cert.KernelIdeal.OkOfPre.ok_of_pre m h)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs end with the same array: the kernel's with its arrangement of the arguments, the
    reference's with its own, and the two arrangements agree for finite x, A, C and ids in [0, 8). -/
theorem algebraic : Cert.algebraic_KernelIdeal_ReferenceIdeal := by
  intro m ρ m' ρ' hpre hagree
  have hO := Cert.KernelIdeal.OkOfPre.ok_of_pre m hpre
  have h0 := hpre 0
  have hids := Lora.PreDecode.ids_lt _ _ _ _ _ _ h0
  refine ⟨fun c => Cert.KernelIdeal.Value.result m c, Cert.KernelIdeal.Value.run m ρ hO hids, ?_⟩
  refine (θ_run Cert.ReferenceIdeal.defs _ _).mono (fun _ h c => ⟨(h c).1.trans ?_, (h c).2⟩)
    (Cert.ReferenceIdeal.RefRun.run m' ρ')
  obtain rfl : c = 0 := Subsingleton.elim _ _
  rw [(hagree 0).1, (hagree 0).2.1, (hagree 0).2.2.1, (hagree 0).2.2.2.1, (hagree 0).2.2.2.2.1, (hagree 0).2.2.2.2.2]
  rw [Cert.ReferenceIdeal.RefValue.refTerm_eq _ _ _ _ _ _ hids]
  exact (Lora.kernelForm_eq_refForm _ _ _ _ _ _ (Lora.PreDecode.finite_x _ _ _ _ _ _ h0)
    (Lora.PreDecode.finite_A _ _ _ _ _ _ h0) (Lora.PreDecode.finite_C _ _ _ _ _ _ h0)).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
